-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S_ : Shape := ⟨0, ![]⟩

class Facts : Prop where
  bcast_S_S2x768x512 : S_.BroadcastsInDim S2x768x512 (![] : Fin 0 → Fin S2x768x512.rank)
  reducesTo_S2x768x512_S_d0_1_2 : S2x768x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x768x512 .f32) (main_arg1 : FVec F S64x512 .f32) (main_arg2 : FVec F S64x512 .f32) (main_arg3 : FVec F S64x64 .f32) (main_arg4 : FVec F S64 .f32) (main_arg5 : FVec F S64 .f32) : IVec S_ 1 :=
  let main_v0 : FVec F S2x768x512 .f32 := Host.absf main_arg0
  let main_cst : FVec F S_ .f32 := constant S_ .f32 0x7F800000#32
  let main_v1 : FVec F S2x768x512 .f32 := broadcastInDim S2x768x512 ![] bcast_S_S2x768x512 main_cst
  let main_v2 : IVec S2x768x512 1 := cmpf .olt main_v0 main_v1
  let main_c : IVec S_ 1 := constantI S_ 1 1#1
  let main_v3 : IVec S_ 1 := (fun x v => Host.reduce IntOp.andi x v reducesTo_S2x768x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S2x768x64 : Shape := ⟨3, ![2, 768, 64]⟩
abbrev S1x768x512 : Shape := ⟨3, ![1, 768, 512]⟩
abbrev S1x768x64 : Shape := ⟨3, ![1, 768, 64]⟩
abbrev S768x512 : Shape := ⟨2, ![768, 512]⟩
abbrev S512x64 : Shape := ⟨2, ![512, 64]⟩
abbrev S768x64 : Shape := ⟨2, ![768, 64]⟩
abbrev S1x64 : Shape := ⟨2, ![1, 64]⟩
abbrev S2x768x49152 : Shape := ⟨3, ![2, 768, 49152]⟩
abbrev S1x128x64 : Shape := ⟨3, ![1, 128, 64]⟩
abbrev S1x128x8192 : Shape := ⟨3, ![1, 128, 8192]⟩
abbrev S128x64 : Shape := ⟨2, ![128, 64]⟩
abbrev S128x1x64 : Shape := ⟨3, ![128, 1, 64]⟩
abbrev S128x128x64 : Shape := ⟨3, ![128, 128, 64]⟩
abbrev S128x128 : Shape := ⟨2, ![128, 128]⟩
abbrev S128x128x1 : Shape := ⟨3, ![128, 128, 1]⟩
abbrev S1x1x64 : Shape := ⟨3, ![1, 1, 64]⟩
abbrev S128x8192 : Shape := ⟨2, ![128, 8192]⟩
abbrev S2x768x768x64 : Shape := ⟨4, ![2, 768, 768, 64]⟩

abbrev nBuf : Space → Nat
  | .hbm => 14
  | .vmem => 16
  | .smem => 0
  | _ => 0

abbrev bufTy : (tb : Table) → Fin (tcTables nBuf tb) → BufTy
  | .hbm, ⟨0, _⟩ => ⟨S2x768x512, .f32⟩
  | .hbm, ⟨1, _⟩ => ⟨S64x512, .f32⟩
  | .hbm, ⟨2, _⟩ => ⟨S64x512, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64x512, .f32⟩
  | .hbm, ⟨7, _⟩ => ⟨S64x512, .f32⟩
  | .hbm, ⟨8, _⟩ => ⟨S2x768x64, .f32⟩
  | .hbm, ⟨9, _⟩ => ⟨S2x768x64, .f32⟩
  | .hbm, ⟨10, _⟩ => ⟨S1x64, .f32⟩
  | .hbm, ⟨11, _⟩ => ⟨S1x64, .f32⟩
  | .hbm, ⟨12, _⟩ => ⟨S2x768x49152, .f32⟩
  | .hbm, ⟨13, _⟩ => ⟨S2x768x768x64, .f32⟩
  | .local _ .vmem, ⟨0, _⟩ => ⟨S1x768x512, .f32⟩
  | .local _ .vmem, ⟨1, _⟩ => ⟨S1x768x512, .f32⟩
  | .local _ .vmem, ⟨2, _⟩ => ⟨S64x512, .f32⟩
  | .local _ .vmem, ⟨3, _⟩ => ⟨S64x512, .f32⟩
  | .local _ .vmem, ⟨4, _⟩ => ⟨S1x768x64, .f32⟩
  | .local _ .vmem, ⟨5, _⟩ => ⟨S1x768x64, .f32⟩
  | .local _ .vmem, ⟨6, _⟩ => ⟨S1x768x64, .f32⟩
  | .local _ .vmem, ⟨7, _⟩ => ⟨S1x768x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x64, .f32⟩
  | .local _ .vmem, ⟨13, _⟩ => ⟨S1x64, .f32⟩
  | .local _ .vmem, ⟨14, _⟩ => ⟨S1x128x8192, .f32⟩
  | .local _ .vmem, ⟨15, _⟩ => ⟨S1x128x8192, .f32⟩
  | _, _ => ⟨S2x768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 6, 6], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x128x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x768x512_S1x768x512_0_0_0 : ∀ a, (![0, 0, 0] : Fin 3 → Nat) a + S1x768x512.size a ≤ S1x768x512.size a
  h_S1x768x512 : 0 < S1x768x512.numel
  shapeCasts_S1x768x512_S768x512 : S1x768x512.ShapeCasts S768x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  transposes_S64x512_p1_0_S512x64 : S64x512.Transposes [1, 0] S512x64
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  shapeCasts_S768x64_S1x768x64 : S768x64.ShapeCasts S1x768x64
  shapeCasts_S64_S1x64 : S64.ShapeCasts S1x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  shapeCasts_S128x128_S128x128x1 : S128x128.ShapeCasts S128x128x1
  broadcasts_S128x128x1_S128x128x64 : S128x128x1.Broadcasts S128x128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S128x128x64 : S1x1x64.Broadcasts S128x128x64
  shapeCasts_S128x128x64_S128x8192 : S128x128x64.ShapeCasts S128x8192
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  shapeCasts_S2x768x49152_S2x768x768x64 : S2x768x49152.ShapeCasts S2x768x768x64
  dot_S64x64_S64x512_S64x512_1_0_0_1_n_n_wf : DotDims.WF S64x64 S64x512 S64x512 [1] [0] [0] [1] [] []
  dot_S768x512_S512x64_S768x64_1_0_0_1_n_n_wf : DotDims.WF S768x512 S512x64 S768x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x512.size a ≤ S2x768x512.size a
  hwx0_0 : ∀ i : grid0.Coords, EltTy.bits .f32 = 32 ∨ (Rect.block (s := S2x768x512) S1x768x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x64.size a ≤ S2x768x64.size a
  hwx0_3 : ∀ i : grid0.Coords, EltTy.bits .f32 = 32 ∨ (Rect.block (s := S2x768x64) S1x768x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x64.size a ≤ S2x768x64.size a
  hwx0_4 : ∀ i : grid0.Coords, EltTy.bits .f32 = 32 ∨ (Rect.block (s := S2x768x64) S1x768x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S2x768x64.size a
  hwx1_0 : ∀ i : grid1.Coords, EltTy.bits .f32 = 32 ∨ (Rect.block (s := S2x768x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S2x768x64.size a
  hwx1_1 : ∀ i : grid1.Coords, EltTy.bits .f32 = 32 ∨ (Rect.block (s := S2x768x64) S1x128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x8192.size a ≤ S2x768x49152.size a
  hwx1_4 : ∀ i : grid1.Coords, EltTy.bits .f32 = 32 ∨ (Rect.block (s := S2x768x49152) S1x128x8192.size (cc1_transform_4 i) (hinb1_4 i)).WholeWords (EltTy.packing .f32)

variable [Facts₀]

def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S768x512_S512x64_S768x64_1_0_0_1_n_n : DotDims S768x512 S512x64 S768x64 where
  lhsContracting := [1]
  rhsContracting := [0]
  lhsNonContracting := [0]
  rhsNonContracting := [1]
  lhsBatch := []
  rhsBatch := []
  wf := dot_S768x512_S512x64_S768x64_1_0_0_1_n_n_wf

abbrev win0_0 : Pipeline.Window sig grid0 :=
  Pipeline.Window.ofSpec (Memref.whole main_arg0) S1x768x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x768x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x768x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S2x768x64 : Shape := ⟨3, ![2, 768, 64]⟩
abbrev S2x768x1x64 : Shape := ⟨4, ![2, 768, 1, 64]⟩
abbrev S2x1x768x64 : Shape := ⟨4, ![2, 1, 768, 64]⟩
abbrev S2x768x768x64 : Shape := ⟨4, ![2, 768, 768, 64]⟩
abbrev S_ : Shape := ⟨0, ![]⟩
abbrev S2x768x768 : Shape := ⟨3, ![2, 768, 768]⟩
abbrev S2x768x768x1 : Shape := ⟨4, ![2, 768, 768, 1]⟩
abbrev S1x1x1x64 : Shape := ⟨4, ![1, 1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x768x512, .f32⟩
  | .hbm, ⟨1, _⟩ => ⟨S64x512, .f32⟩
  | .hbm, ⟨2, _⟩ => ⟨S64x512, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S2x768x64, .f32⟩
  | .hbm, ⟨7, _⟩ => ⟨S2x768x64, .f32⟩
  | .hbm, ⟨8, _⟩ => ⟨S2x768x1x64, .f32⟩
  | .hbm, ⟨9, _⟩ => ⟨S2x1x768x64, .f32⟩
  | .hbm, ⟨10, _⟩ => ⟨S2x768x768x64, .f32⟩
  | .hbm, ⟨11, _⟩ => ⟨S2x768x768x64, .f32⟩
  | .hbm, ⟨12, _⟩ => ⟨S2x768x768x64, .f32⟩
  | .hbm, ⟨13, _⟩ => ⟨S2x768x768x64, .f32⟩
  | .hbm, ⟨14, _⟩ => ⟨S_, .f32⟩
  | .hbm, ⟨15, _⟩ => ⟨S2x768x768, .f32⟩
  | .hbm, ⟨16, _⟩ => ⟨S2x768x768x1, .f32⟩
  | .hbm, ⟨17, _⟩ => ⟨S_, .f32⟩
  | .hbm, ⟨18, _⟩ => ⟨S2x768x768x1, .f32⟩
  | .hbm, ⟨19, _⟩ => ⟨S2x768x768x1, .f32⟩
  | .hbm, ⟨20, _⟩ => ⟨S2x768x768x64, .f32⟩
  | .hbm, ⟨21, _⟩ => ⟨S2x768x768x64, .f32⟩
  | .hbm, ⟨22, _⟩ => ⟨S2x768x768x64, .f32⟩
  | .hbm, ⟨23, _⟩ => ⟨S_, .f32⟩
  | .hbm, ⟨24, _⟩ => ⟨S2x768x768, .f32⟩
  | .hbm, ⟨25, _⟩ => ⟨S2x768x768x1, .f32⟩
  | .hbm, ⟨26, _⟩ => ⟨S_, .f32⟩
  | .hbm, ⟨27, _⟩ => ⟨S2x768x768x1, .f32⟩
  | .hbm, ⟨28, _⟩ => ⟨S2x768x768x1, .f32⟩
  | .hbm, ⟨29, _⟩ => ⟨S2x768x768x64, .f32⟩
  | .hbm, ⟨30, _⟩ => ⟨S2x768x768x64, .f32⟩
  | .hbm, ⟨31, _⟩ => ⟨S_, .f32⟩
  | .hbm, ⟨32, _⟩ => ⟨S2x768x768x1, .f32⟩
  | .hbm, ⟨33, _⟩ => ⟨S2x768x768x1, .f32⟩
  | .hbm, ⟨34, _⟩ => ⟨S2x768x768x1, .f32⟩
  | .hbm, ⟨35, _⟩ => ⟨S2x768x768x64, .f32⟩
  | .hbm, ⟨36, _⟩ => ⟨S2x768x768x64, .f32⟩
  | .hbm, ⟨37, _⟩ => ⟨S1x1x1x64, .f32⟩
  | .hbm, ⟨38, _⟩ => ⟨S2x768x768x64, .f32⟩
  | .hbm, ⟨39, _⟩ => ⟨S2x768x768x64, .f32⟩
  | .hbm, ⟨40, _⟩ => ⟨S1x1x1x64, .f32⟩
  | .hbm, ⟨41, _⟩ => ⟨S2x768x768x64, .f32⟩
  | .hbm, ⟨42, _⟩ => ⟨S2x768x768x64, .f32⟩
  | _, _ => ⟨S2x768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S2x768x64_S2x768x1x64_0_1_3 : S2x768x64.BroadcastsInDim S2x768x1x64 (![0, 1, 3] : Fin 3 → Fin S2x768x1x64.rank)
  bcast_S2x768x64_S2x1x768x64_0_2_3 : S2x768x64.BroadcastsInDim S2x1x768x64 (![0, 2, 3] : Fin 3 → Fin S2x1x768x64.rank)
  bcast_S2x768x1x64_S2x768x768x64_0_1_2_3 : S2x768x1x64.BroadcastsInDim S2x768x768x64 (![0, 1, 2, 3] : Fin 4 → Fin S2x768x768x64.rank)
  bcast_S2x1x768x64_S2x768x768x64_0_1_2_3 : S2x1x768x64.BroadcastsInDim S2x768x768x64 (![0, 1, 2, 3] : Fin 4 → Fin S2x768x768x64.rank)
  reducesTo_S2x768x768x64_S2x768x768_d3 : S2x768x768x64.ReducesTo [3] S2x768x768
  h_S_ : 0 < S_.numel
  bcast_S2x768x768_S2x768x768x1_0_1_2 : S2x768x768.BroadcastsInDim S2x768x768x1 (![0, 1, 2] : Fin 3 → Fin S2x768x768x1.rank)
  bcast_S_S2x768x768x1 : S_.BroadcastsInDim S2x768x768x1 (![] : Fin 0 → Fin S2x768x768x1.rank)
  bcast_S2x768x768x1_S2x768x768x64_0_1_2_3 : S2x768x768x1.BroadcastsInDim S2x768x768x64 (![0, 1, 2, 3] : Fin 4 → Fin S2x768x768x64.rank)
  bcast_S64_S1x1x1x64_3 : S64.BroadcastsInDim S1x1x1x64 (![3] : Fin 1 → Fin S1x1x1x64.rank)
  bcast_S1x1x1x64_S2x768x768x64_0_1_2_3 : S1x1x1x64.BroadcastsInDim S2x768x768x64 (![0, 1, 2, 3] : Fin 4 → Fin S2x768x768x64.rank)
  dot_S2x768x512_S64x512_S2x768x64_2_1_01_0_n_n_wf : DotDims.WF S2x768x512 S64x512 S2x768x64 [2] [1] [0, 1] [0] [] []
  dot_S2x768x768x64_S64x64_S2x768x768x64_3_1_012_0_n_n_wf : DotDims.WF S2x768x768x64 S64x64 S2x768x768x64 [3] [1] [0, 1, 2] [0] [] []

variable [Facts₀]

def dot_S2x768x512_S64x512_S2x768x64_2_1_01_0_n_n : DotDims S2x768x512 S64x512 S2x768x64 where
  lhsContracting := [2]
  rhsContracting := [1]
  lhsNonContracting := [0, 1]
  rhsNonContracting := [0]
  lhsBatch := []
  rhsBatch := []
  wf := dot_S2x768x512_S64x512_S2x768x64_2_1_01_0_n_n_wf
def dot_S2x768x768x64_S64x64_S2x768x768x64_3_1_012_0_n_n : DotDims S2x768x768x64 S64x64 S2x768x768x64 where
  lhsContracting := [3]
  rhsContracting := [1]
  lhsNonContracting := [0, 1, 2]
  rhsNonContracting := [0]
  lhsBatch := []
  rhsBatch := []
  wf := dot_S2x768x768x64_S64x64_S2x768x768x64_3_1_012_0_n_n_wf

class Facts : Prop extends Facts₀ where

variable [Facts]
-- ==== Proof.EdgeNorm.lean ====
/-
  The mathematics of the edge embedding, with no program in sight.

  For a batch entry `b` and a pair of positions `(i, j)` the pre-normalisation vector `h ∈ ℝ^64` is written two ways:

    * project, pair, mix:   h f = Σ_e (Σ_d x[b,i,d]·Wr[e,d] + Σ_d x[b,j,d]·Wc[e,d]) · We[f,e]
    * fold, project, pair:  h f = Σ_d x[b,i,d]·(Σ_e We[f,e]·Wr[e,d]) + Σ_d x[b,j,d]·(Σ_e We[f,e]·Wc[e,d])

  The second is the first with the mixing matrix `We` multiplied into the two projection matrices beforehand: it distributes the
  product over the inner sum and exchanges the two summations. Both steps are laws of the real numbers that FAIL on the
  extended reals at an infinity (`(⊤ + ⊥)·0` against `⊤·0 + ⊥·0`), so the law is stated for entries that are real numbers.

  After that both sides apply one and the same normalisation to `h` (`lnAt`): subtract the mean over the 64 entries, divide
  by the square root of the mean squared deviation plus a small constant, scale, shift. It is never opened.
-/
import Idealize.ShloMosaic.PureOps.Ideal
import Idealize.ShloMosaic.Lib.ValueIdx

noncomputable section

open scoped BigOperators

namespace Cert.EdgeNorm

open Idealize.ShloMosaic Idealize.ShloMosaic.ValueIdx

/-- The real numbers sit inside the extended reals additively, over any finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mixing after projecting is projecting onto the mixed weights: distribute `u e` over the inner sum and exchange the sums. -/
theorem mix_after_project_real {D E : Type} [Fintype D] [Fintype E] (a : D → ℝ) (w : E → D → ℝ) (u : E → ℝ) :
    ∑ e, (∑ d, a d * w e d) * u e = ∑ d, a d * ∑ e, u e * w e d := by
  simp only [Finset.sum_mul, Finset.mul_sum]
  rw [Finset.sum_comm]
  exact Finset.sum_congr rfl fun d _ => Finset.sum_congr rfl fun e _ => by ring

/-- The same for a pair of projections added before the mixing. -/
theorem mix_pair_real {D E : Type} [Fintype D] [Fintype E] (a a' : D → ℝ) (w w' : E → D → ℝ) (u : E → ℝ) :
    ∑ e, ((∑ d, a d * w e d) + (∑ d, a' d * w' e d)) * u e
      = (∑ d, a d * ∑ e, u e * w e d) + (∑ d, a' d * ∑ e, u e * w' e d) := by
  simp only [add_mul, Finset.sum_add_distrib]
  rw [mix_after_project_real, mix_after_project_real]

/-- On the extended reals the law holds when every entry is a real number. -/
theorem mix_pair {D E : Type} [Fintype D] [Fintype E] (a a' : D → EReal) (w w' : E → D → EReal) (u : E → EReal)
    (ha : ∀ d, ∃ r : ℝ, a d = r) (ha' : ∀ d, ∃ r : ℝ, a' d = r) (hw : ∀ e d, ∃ r : ℝ, w e d = r)
    (hw' : ∀ e d, ∃ r : ℝ, w' e d = r) (hu : ∀ e, ∃ r : ℝ, u e = r) :
    ∑ e, ((∑ d, a d * w e d) + (∑ d, a' d * w' e d)) * u e
      = (∑ d, a d * ∑ e, u e * w e d) + (∑ d, a' d * ∑ e, u e * w' e d) := by
  obtain ⟨ra, rfl⟩ : ∃ ra : D → ℝ, a = fun d => (ra d : EReal) := ⟨fun d => (ha d).choose, funext fun d => (ha d).choose_spec⟩
  obtain ⟨ra', rfl⟩ : ∃ ra' : D → ℝ, a' = fun d => (ra' d : EReal) := ⟨fun d => (ha' d).choose, funext fun d => (ha' d).choose_spec⟩
  obtain ⟨rw, rfl⟩ : ∃ rw : E → D → ℝ, w = fun e d => (rw e d : EReal) :=
    ⟨fun e d => (hw e d).choose, funext fun e => funext fun d => (hw e d).choose_spec⟩
  obtain ⟨rw', rfl⟩ : ∃ rw' : E → D → ℝ, w' = fun e d => (rw' e d : EReal) :=
    ⟨fun e d => (hw' e d).choose, funext fun e => funext fun d => (hw' e d).choose_spec⟩
  obtain ⟨ru, rfl⟩ : ∃ ru : E → ℝ, u = fun e => (ru e : EReal) := ⟨fun e => (hu e).choose, funext fun e => (hu e).choose_spec⟩
  simp only [← EReal.coe_mul, ← coe_sum, ← EReal.coe_add]
  exact congrArg _ (mix_pair_real ra ra' rw rw' ru)

/-! ## The two forms of the pre-normalisation vector, over the arrays -/

abbrev Acts := (⟨3, ![2, 768, 512]⟩ : Shape).Idx → EReal
abbrev Proj := (⟨2, ![64, 512]⟩ : Shape).Idx → EReal
abbrev Mix := (⟨2, ![64, 64]⟩ : Shape).Idx → EReal
abbrev Vec64 := (⟨1, ![64]⟩ : Shape).Idx → EReal

/-- Project, pair, mix. -/
def hMixed (x : Acts) (wr wc : Proj) (we : Mix) (b : Fin 2) (i j : Fin 768) (f : Fin 64) : EReal :=
  ∑ e : Fin 64, ((∑ d : Fin 512, x (ix3 b i d) * wr (ix2 e d)) + (∑ d : Fin 512, x (ix3 b j d) * wc (ix2 e d))) * we (ix2 f e)

/-- Fold the mixing matrix into the weights, project, pair. -/
def hFolded (x : Acts) (wr wc : Proj) (we : Mix) (b : Fin 2) (i j : Fin 768) (f : Fin 64) : EReal :=
  (∑ d : Fin 512, x (ix3 b i d) * ∑ e : Fin 64, we (ix2 f e) * wr (ix2 e d))
    + (∑ d : Fin 512, x (ix3 b j d) * ∑ e : Fin 64, we (ix2 f e) * wc (ix2 e d))

/-- The two forms agree on arrays of real numbers. -/
theorem hMixed_eq_hFolded (x : Acts) (wr wc : Proj) (we : Mix) (hx : ∀ k, ∃ r : ℝ, x k = r) (hwr : ∀ k, ∃ r : ℝ, wr k = r)
    (hwc : ∀ k, ∃ r : ℝ, wc k = r) (hwe : ∀ k, ∃ r : ℝ, we k = r) (b : Fin 2) (i j : Fin 768) (f : Fin 64) :
    hMixed x wr wc we b i j f = hFolded x wr wc we b i j f :=
  mix_pair (fun d => x (ix3 b i d)) (fun d => x (ix3 b j d)) (fun e d => wr (ix2 e d)) (fun e d => wc (ix2 e d))
    (fun e => we (ix2 f e)) (fun _ => hx _) (fun _ => hx _) (fun _ _ => hwr _) (fun _ _ => hwc _) (fun _ => hwe _)

/-! ## The normalisation both sides apply -/

/-- Entry `f` of the normalised vector: `(h f − μ) · (σ² + ε)^(−1/2) · g + s` with `μ` the mean of `h` over its 64 entries and
    `σ²` the mean of `(h − μ)²`; the divisor 64 and `ε` are the two float words the programs carry. -/
def lnAt (h : Fin 64 → EReal) (g s : EReal) (f : Fin 64) : EReal :=
  (h f - Ideal.div (∑ e : Fin 64, h e) (Ideal.ofBits .f32 0x42800000#32))
      * Ideal.rsqrt (Ideal.div (∑ e : Fin 64, (h e - Ideal.div (∑ e' : Fin 64, h e') (Ideal.ofBits .f32 0x42800000#32))
            * (h e - Ideal.div (∑ e' : Fin 64, h e') (Ideal.ofBits .f32 0x42800000#32))) (Ideal.ofBits .f32 0x42800000#32)
          + Ideal.ofBits .f32 0x3727C5AC#32)
      * g + s

/-- THE RESULT, as the reference spells it: entry `(b, i, j, f)` of the `[2, 768, 768, 64]` array. -/
def edgeMixed (x : Acts) (wr wc : Proj) (we : Mix) (g s : Vec64) : (⟨4, ![2, 768, 768, 64]⟩ : Shape).Idx → EReal :=
  fun k => lnAt (hMixed x wr wc we (k 0) (k 1) (k 2)) (g (ix1 (k 3))) (s (ix1 (k 3))) (k 3)

/-- THE RESULT, as the kernel spells it. -/
def edgeFolded (x : Acts) (wr wc : Proj) (we : Mix) (g s : Vec64) : (⟨4, ![2, 768, 768, 64]⟩ : Shape).Idx → EReal :=
  fun k => lnAt (hFolded x wr wc we (k 0) (k 1) (k 2)) (g (ix1 (k 3))) (s (ix1 (k 3))) (k 3)

/-- One array, on real inputs. -/
theorem edgeMixed_eq_edgeFolded (x : Acts) (wr wc : Proj) (we : Mix) (g s : Vec64) (hx : ∀ k, ∃ r : ℝ, x k = r)
    (hwr : ∀ k, ∃ r : ℝ, wr k = r) (hwc : ∀ k, ∃ r : ℝ, wc k = r) (hwe : ∀ k, ∃ r : ℝ, we k = r) :
    edgeMixed x wr wc we g s = edgeFolded x wr wc we g s := by
  funext k
  unfold edgeMixed edgeFolded
  rw [show hMixed x wr wc we (k 0) (k 1) (k 2) = hFolded x wr wc we (k 0) (k 1) (k 2) from
    funext fun f => hMixed_eq_hFolded x wr wc we hx hwr hwc hwe (k 0) (k 1) (k 2) f]

end Cert.EdgeNorm

end
-- ==== Proof.RefEdge.lean ====
/-
  The reference program, read one entry at a time, is the edge embedding.

  The program projects the activations onto two weight matrices (rows[b,n,e] = Σ_d x[b,n,d]·Wr[e,d], cols likewise with Wc),
  pairs them (outer[b,i,j,e] = rows[b,i,e] + cols[b,j,e], through two broadcasts along a unit axis each), mixes the last
  axis (h[b,i,j,f] = Σ_e outer[b,i,j,e]·We[f,e]) and normalises h over its last axis: the sum over the 64 entries divided by
  the word for 64 is the mean μ, the sum of (h − μ)² divided by the same word is the variance, and the entry is
  (h − μ)·(variance + ε)^(−1/2)·γ + β. Each lemma below reads one of these arrays at an index given by its coordinates and
  names the value; the index functions of the broadcasts, contractions and reductions are literal, so every index equation
  is checked coordinate by coordinate. At the ideal instance every operation is the extended reals' own, the two sums
  start from the zero word, which is the number 0, and no float word is ever evaluated.

  The last theorem collects them: the returned array is `Cert.EdgeNorm.edgeMixed` of the six arguments.
-/
import proofs.«150945_j21088289424017_2_alg».proof.Proof.Gen.ReferenceIdeal.Read
import proofs.«150945_j21088289424017_2_alg».proof.Proof.EdgeNorm

noncomputable section

open scoped BigOperators

namespace Cert.RefEdge

open Cert.ReferenceIdeal Cert.ReferenceIdeal.Read Cert.EdgeNorm Idealize.ShloMosaic Idealize.ShloMosaic.ValueIdx

variable (x0 : (⟨S2x768x512, .f32⟩ : BufTy).Contents (Elt Ideal)) (x1 x2 : (⟨S64x512, .f32⟩ : BufTy).Contents (Elt Ideal))
  (x3 : (⟨S64x64, .f32⟩ : BufTy).Contents (Elt Ideal)) (x4 x5 : (⟨S64, .f32⟩ : BufTy).Contents (Elt Ideal))

/-- The row projection at `(b, n, e)`: the contraction of `x[b, n, ·]` with `Wr[e, ·]`. -/
theorem rows_at (b : Fin 2) (n : Fin 768) (e : Fin 64) :
    val_main_v0 (F := Ideal) x0 x1 (ix3 b n e) = ∑ d : Fin 512, x0 (ix3 b n d) * x1 (ix2 e d) := by
  rw [val_main_v0_apply]
  refine Finset.sum_congr rfl fun d _ => ?_
  rw [show lidx_main_v0 (ix3 b n e) d = ix3 b n d from
        funext fun a => by match a with | ⟨0, _⟩ => rfl | ⟨1, _⟩ => rfl | ⟨2, _⟩ => rfl,
      show ridx_main_v0 (ix3 b n e) d = ix2 e d from
        funext fun a => by match a with | ⟨0, _⟩ => rfl | ⟨1, _⟩ => rfl]

/-- The column projection at `(b, n, e)`: the contraction of `x[b, n, ·]` with `Wc[e, ·]`. -/
theorem cols_at (b : Fin 2) (n : Fin 768) (e : Fin 64) :
    val_main_v1 (F := Ideal) x0 x2 (ix3 b n e) = ∑ d : Fin 512, x0 (ix3 b n d) * x2 (ix2 e d) := by
  rw [val_main_v1_apply]
  refine Finset.sum_congr rfl fun d _ => ?_
  rw [show lidx_main_v1 (ix3 b n e) d = ix3 b n d from
        funext fun a => by match a with | ⟨0, _⟩ => rfl | ⟨1, _⟩ => rfl | ⟨2, _⟩ => rfl,
      show ridx_main_v1 (ix3 b n e) d = ix2 e d from
        funext fun a => by match a with | ⟨0, _⟩ => rfl | ⟨1, _⟩ => rfl]

/-- The paired array at `(b, i, j, e)`: the row projection at `(b, i, e)` plus the column projection at `(b, j, e)`; each
    reaches this rank through two broadcasts, the first inserting a unit axis and the second stretching it. -/
theorem outer_at (b : Fin 2) (i j : Fin 768) (e : Fin 64) :
    val_main_v6 (F := Ideal) x0 x1 x2 (ix4 b i j e)
      = (∑ d : Fin 512, x0 (ix3 b i d) * x1 (ix2 e d)) + (∑ d : Fin 512, x0 (ix3 b j d) * x2 (ix2 e d)) := by
  rw [val_main_v6_apply, val_main_v4_apply, val_main_v2_apply, val_main_v5_apply, val_main_v3_apply, Ideal.addf_def]
  rw [show idx_main_v2 (idx_main_v4 (ix4 b i j e)) = ix3 b i e from
        funext fun a => by match a with | ⟨0, _⟩ => rfl | ⟨1, _⟩ => rfl | ⟨2, _⟩ => rfl,
      show idx_main_v3 (idx_main_v5 (ix4 b i j e)) = ix3 b j e from
        funext fun a => by match a with | ⟨0, _⟩ => rfl | ⟨1, _⟩ => rfl | ⟨2, _⟩ => rfl,
      rows_at, cols_at]

/-- The mixed array at `(b, i, j, f)` is the pre-normalisation vector `hMixed` at `f`. -/
theorem h_at (b : Fin 2) (i j : Fin 768) (f : Fin 64) :
    val_main_v7 (F := Ideal) x0 x1 x2 x3 (ix4 b i j f) = hMixed x0 x1 x2 x3 b i j f := by
  rw [val_main_v7_apply]
  unfold hMixed
  refine Finset.sum_congr rfl fun e _ => ?_
  rw [show lidx_main_v7 (ix4 b i j f) e = ix4 b i j e from
        funext fun a => by match a with | ⟨0, _⟩ => rfl | ⟨1, _⟩ => rfl | ⟨2, _⟩ => rfl | ⟨3, _⟩ => rfl,
      show ridx_main_v7 (ix4 b i j f) e = ix2 f e from
        funext fun a => by match a with | ⟨0, _⟩ => rfl | ⟨1, _⟩ => rfl,
      outer_at]

/-- The first reduction at `(b, i, j)`: the sum of the 64 entries of the pre-normalisation vector (its initial value is 0). -/
theorem sum_at (b : Fin 2) (i j : Fin 768) :
    val_main_v8 (F := Ideal) x0 x1 x2 x3 (ix3 b i j) = ∑ e : Fin 64, hMixed x0 x1 x2 x3 b i j e := by
  rw [val_main_v8_apply, val_main_cst_apply, Ideal.ofBits_def, Ideal.ofBits_zero_f32, zero_add]
  refine Finset.sum_congr rfl fun e _ => ?_
  rw [show idx_main_v8 (ix3 b i j) e = ix4 b i j e from
        funext fun a => by match a with | ⟨0, _⟩ => rfl | ⟨1, _⟩ => rfl | ⟨2, _⟩ => rfl | ⟨3, _⟩ => rfl,
      h_at]

/-- The mean at `(b, i, j, u)`, `u` the one coordinate of the unit axis: that sum divided by the word for 64. -/
theorem mean_at (b : Fin 2) (i j : Fin 768) (u : Fin 1) :
    val_main_v11 (F := Ideal) x0 x1 x2 x3 (ix4 b i j u)
      = Ideal.div (∑ e : Fin 64, hMixed x0 x1 x2 x3 b i j e) (Ideal.ofBits .f32 0x42800000#32) := by
  rw [val_main_v11_apply, val_main_v9_apply, val_main_v10_apply, val_main_cst_0_apply, Ideal.hostDivf_def, Ideal.ofBits_def]
  rw [show idx_main_v9 (ix4 b i j u) = ix3 b i j from
        funext fun a => by match a with | ⟨0, _⟩ => rfl | ⟨1, _⟩ => rfl | ⟨2, _⟩ => rfl,
      sum_at]

/-- The deviation that is squared: the entry minus the mean, the mean read through a broadcast along the unit axis. -/
theorem dev13_at (b : Fin 2) (i j : Fin 768) (f : Fin 64) :
    val_main_v13 (F := Ideal) x0 x1 x2 x3 (ix4 b i j f)
      = hMixed x0 x1 x2 x3 b i j f
          - Ideal.div (∑ e : Fin 64, hMixed x0 x1 x2 x3 b i j e) (Ideal.ofBits .f32 0x42800000#32) := by
  rw [val_main_v13_apply, val_main_v12_apply, Ideal.subf_def, h_at]
  rw [show idx_main_v12 (ix4 b i j f) = ix4 b i j (⟨0, Nat.one_pos⟩ : Fin 1) from
        funext fun a => by match a with | ⟨0, _⟩ => rfl | ⟨1, _⟩ => rfl | ⟨2, _⟩ => rfl | ⟨3, _⟩ => rfl,
      mean_at]

/-- The deviation that is scaled: the program computes the same difference a second time. -/
theorem dev20_at (b : Fin 2) (i j : Fin 768) (f : Fin 64) :
    val_main_v20 (F := Ideal) x0 x1 x2 x3 (ix4 b i j f)
      = hMixed x0 x1 x2 x3 b i j f
          - Ideal.div (∑ e : Fin 64, hMixed x0 x1 x2 x3 b i j e) (Ideal.ofBits .f32 0x42800000#32) := by
  rw [val_main_v20_apply, val_main_v19_apply, Ideal.subf_def, h_at]
  rw [show idx_main_v19 (ix4 b i j f) = ix4 b i j (⟨0, Nat.one_pos⟩ : Fin 1) from
        funext fun a => by match a with | ⟨0, _⟩ => rfl | ⟨1, _⟩ => rfl | ⟨2, _⟩ => rfl | ⟨3, _⟩ => rfl,
      mean_at]

/-- The variance at `(b, i, j, u)`: the sum of the squared deviations divided by the word for 64. -/
theorem var_at (b : Fin 2) (i j : Fin 768) (u : Fin 1) :
    val_main_v18 (F := Ideal) x0 x1 x2 x3 (ix4 b i j u)
      = Ideal.div (∑ e : Fin 64,
            (hMixed x0 x1 x2 x3 b i j e
                - Ideal.div (∑ e' : Fin 64, hMixed x0 x1 x2 x3 b i j e') (Ideal.ofBits .f32 0x42800000#32))
              * (hMixed x0 x1 x2 x3 b i j e
                - Ideal.div (∑ e' : Fin 64, hMixed x0 x1 x2 x3 b i j e') (Ideal.ofBits .f32 0x42800000#32)))
          (Ideal.ofBits .f32 0x42800000#32) := by
  rw [val_main_v18_apply, val_main_v16_apply, val_main_v17_apply, val_main_cst_2_apply, Ideal.hostDivf_def, Ideal.ofBits_def]
  rw [show idx_main_v16 (ix4 b i j u) = ix3 b i j from
        funext fun a => by match a with | ⟨0, _⟩ => rfl | ⟨1, _⟩ => rfl | ⟨2, _⟩ => rfl,
      val_main_v15_apply, val_main_cst_1_apply, Ideal.ofBits_def, Ideal.ofBits_zero_f32, zero_add]
  refine congrArg (Ideal.div · _) (Finset.sum_congr rfl fun e _ => ?_)
  rw [show idx_main_v15 (ix3 b i j) e = ix4 b i j e from
        funext fun a => by match a with | ⟨0, _⟩ => rfl | ⟨1, _⟩ => rfl | ⟨2, _⟩ => rfl | ⟨3, _⟩ => rfl,
      val_main_v14_apply, Ideal.mulf_def, dev13_at]

/-- The scale at `(b, i, j, u)`: the reciprocal square root of the variance plus the small constant. -/
theorem rstd_at (b : Fin 2) (i j : Fin 768) (u : Fin 1) :
    val_main_v23 (F := Ideal) x0 x1 x2 x3 (ix4 b i j u)
      = Ideal.rsqrt (Ideal.div (∑ e : Fin 64,
            (hMixed x0 x1 x2 x3 b i j e
                - Ideal.div (∑ e' : Fin 64, hMixed x0 x1 x2 x3 b i j e') (Ideal.ofBits .f32 0x42800000#32))
              * (hMixed x0 x1 x2 x3 b i j e
                - Ideal.div (∑ e' : Fin 64, hMixed x0 x1 x2 x3 b i j e') (Ideal.ofBits .f32 0x42800000#32)))
          (Ideal.ofBits .f32 0x42800000#32) + Ideal.ofBits .f32 0x3727C5AC#32) := by
  rw [val_main_v23_apply, val_main_v22_apply, val_main_v21_apply, val_main_cst_3_apply, Ideal.hostUnary_rsqrt_def,
    Ideal.addf_def, Ideal.ofBits_def, var_at]

/-- The returned entry at `(b, i, j, f)`: the deviation times the scale times `γ[f]` plus `β[f]`, which is `lnAt` of the
    pre-normalisation vector at `f`. -/
theorem out_at (b : Fin 2) (i j : Fin 768) (f : Fin 64) :
    val_main_v31 (F := Ideal) x0 x1 x2 x3 x4 x5 (ix4 b i j f)
      = lnAt (hMixed x0 x1 x2 x3 b i j) (x4 (ix1 f)) (x5 (ix1 f)) f := by
  rw [val_main_v31_apply, val_main_v28_apply, val_main_v25_apply, val_main_v24_apply, val_main_v27_apply,
    val_main_v26_apply, val_main_v30_apply, val_main_v29_apply, Ideal.addf_def, Ideal.mulf_def, Ideal.mulf_def, dev20_at]
  rw [show idx_main_v24 (ix4 b i j f) = ix4 b i j (⟨0, Nat.one_pos⟩ : Fin 1) from
        funext fun a => by match a with | ⟨0, _⟩ => rfl | ⟨1, _⟩ => rfl | ⟨2, _⟩ => rfl | ⟨3, _⟩ => rfl,
      rstd_at,
      show idx_main_v26 (idx_main_v27 (ix4 b i j f)) = ix1 f from
        funext fun a => by match a with | ⟨0, _⟩ => rfl,
      show idx_main_v29 (idx_main_v30 (ix4 b i j f)) = ix1 f from
        funext fun a => by match a with | ⟨0, _⟩ => rfl]
  rfl

/-- THE REFERENCE IS THE EDGE EMBEDDING: the array the reference program returns is `edgeMixed` of its six arguments. -/
theorem reference_eq_edgeMixed (x0 : (⟨S2x768x512, .f32⟩ : BufTy).Contents (Elt Ideal))
    (x1 x2 : (⟨S64x512, .f32⟩ : BufTy).Contents (Elt Ideal)) (x3 : (⟨S64x64, .f32⟩ : BufTy).Contents (Elt Ideal))
    (x4 x5 : (⟨S64, .f32⟩ : BufTy).Contents (Elt Ideal)) :
    Cert.ReferenceIdeal.Read.val_main_v31 (F := Ideal) x0 x1 x2 x3 x4 x5 = Cert.EdgeNorm.edgeMixed x0 x1 x2 x3 x4 x5 := by
  funext k
  obtain ⟨b, i, j, f, rfl⟩ : ∃ (b : Fin 2) (i j : Fin 768) (f : Fin 64), k = ix4 b i j f :=
    ⟨k 0, k 1, k 2, k 3, eq_ix4 (n0 := 2) (n1 := 768) (n2 := 768) (n3 := 64) k⟩
  exact out_at x0 x1 x2 x3 x4 x5 b i j f

end Cert.RefEdge

end
-- ==== Proof.FiniteInputs.lean ====
/-
  Finite inputs are arrays of real numbers.

  The precondition is the conjunction, over the six arguments, of "every entry has absolute value below +∞": for
  each argument the array of comparisons |a[k]| < +∞ is reduced by `and` from the constant 1 into a single word, and the six
  words are joined by `and`. If the result is 1 then each of the joined words is 1, a reduction by `and` that is 1 met a 1
  at every index, and an extended real whose absolute value max(x, −x) is below ⊤ is neither ⊤ nor ⊥, so it is a real number.
  Only the first four arguments are read here.
-/
import proofs.«150945_j21088289424017_2_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- An extended real whose absolute value compares below the word for +∞ is a real number: the word denotes `⊤`, and
    `max x (−x)` is `⊤` at both infinities. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- One argument: if the `and` over all entries of the comparison `|a[k]| < +∞` is 1, every entry of `a` is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) (k : s.Idx) : ∃ r : ℝ, a k = (r : EReal) :=
  real_of_abs_lt_inf (a k) (Host.reduce_andi_all _ _ hr hu _ e k)

/-- THE PRECONDITION READ BACK: where the precondition holds, the activations and the three weight matrices are arrays
    of real numbers. The predicate is a left-nested conjunction of six words; the first four are taken out of it. -/
theorem reals_of_pre [Cert.Pre_finite_inputs.Facts] (a0 : FVec Ideal S2x768x512 .f32) (a1 a2 : FVec Ideal S64x512 .f32)
    (a3 : FVec Ideal S64x64 .f32) (a4 a5 : FVec Ideal S64 .f32)
    (h : Cert.Pre_finite_inputs.fn (F := Ideal) a0 a1 a2 a3 a4 a5 = (fun _ => 1#1)) :
    (∀ k, ∃ r : ℝ, a0 k = (r : EReal)) ∧ (∀ k, ∃ r : ℝ, a1 k = (r : EReal)) ∧ (∀ k, ∃ r : ℝ, a2 k = (r : EReal))
      ∧ (∀ k, ∃ r : ℝ, a3 k = (r : EReal)) := by
  have h0 := congrFun h ValueIdx.ix0
  dsimp only [fn, fn_part1] at h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3⟩

end Cert.FiniteInputs

end
-- ==== Proof.EdgeRun.lean ====
/-
  The idealized kernel's run with its result NAMED.

  @main is five segments: the two weight foldings on the host, the projection region, the two reshapes of the scale and shift
  vectors, the pairing-and-normalisation region, and the last reshape. The generated frame follows the contents of every buffer
  through these segments as a fold from the launch memory, and shows that every execution ends with each buffer at the fold's
  last stage. Read at the result buffer instead of at the arguments, the same launch gives the result array: it is the last
  stage of the fold at that buffer.
-/
import proofs.«150945_j21088289424017_2_alg».proof.Proof.Gen.KernelIdeal.Frame

set_option maxRecDepth 16384

noncomputable section

namespace Cert.KernelIdeal.EdgeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold of buffer contents through the five segments, and the six argument arrays as launched. -/
theorem run_named : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.EdgeRun

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.ProjRegion.lean ====
/-
  The projection region: `rows' = x · Wr'ᵀ` and `cols' = x · Wc'ᵀ`, read as whole arrays.

  The region has one grid point per batch entry `b`. At that point the body loads the `[768, 512]` slab `x[b]` and the two whole
  `[64, 512]` weight matrices, forms the two `[768, 64]` products against the transposed weights on the matrix unit, and stores each
  as the slab `[b]` of its `[2, 768, 64]` output. On the extended reals a change of float format is the identity and the matrix
  unit's product from a zero accumulator is the plain sum, so the entry `(b, n, f)` of an output is `Σ_d x[b,n,d] · W'[f,d]`
  whatever the region finds in `x` and `W'`: the two slabs tile the output, so the array after the region is that function.
-/
import proofs.«150945_j21088289424017_2_alg».proof.Proof.Gen.KernelIdeal.Frame
import proofs.«150945_j21088289424017_2_alg».proof.Proof.LibDotInner
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjRegion

open Cert.KernelIdeal Cert.KernelIdeal.Gen
open Idealize.ShloMosaic Idealize.ShloMosaic.TcCoe Idealize.ShloMosaic.ValueIdx Idealize.SL.Sem
open Idealize.ShloMosaic.Pipeline (Dat)

/-- A batch of row vectors against the rows of a weight matrix: entry `(b, n, f)` is `Σ_d A[b,n,d] · B[f,d]`. -/
def projOf (A : S2x768x512.Idx → EReal) (B : S64x512.Idx → EReal) : S2x768x64.Idx → EReal :=
  fun k => ∑ d : Fin 512, A (ix3 (k 0) (k 1) d) * B (ix2 (k 2) d)

/-! ## The matrix unit's product: which operand coordinate is which -/

theorem dotL0 (i : S768x64.Idx) (q : dot_S768x512_S512x64_S768x64_1_0_0_1_n_n.contr.Idx) :
    (dot_S768x512_S512x64_S768x64_1_0_0_1_n_n.lhsIdx i q 0).val = (i 0).val := by
  unfold DotDims.lhsIdx
  rw [dif_neg (show ¬(0 : Fin S768x512.rank) ∈ dot_S768x512_S512x64_S768x64_1_0_0_1_n_n.lhsBatch by decide),
    dif_pos (show (0 : Fin S768x512.rank) ∈ dot_S768x512_S512x64_S768x64_1_0_0_1_n_n.lhsNonContracting by decide)]
  rfl
theorem dotL1 (i : S768x64.Idx) (q : dot_S768x512_S512x64_S768x64_1_0_0_1_n_n.contr.Idx) :
    (dot_S768x512_S512x64_S768x64_1_0_0_1_n_n.lhsIdx i q 1).val = (q ⟨0, by decide⟩).val :=
  dot_S768x512_S512x64_S768x64_1_0_0_1_n_n.lhsIdx_val_of_single rfl i q
theorem dotR0 (i : S768x64.Idx) (q : dot_S768x512_S512x64_S768x64_1_0_0_1_n_n.contr.Idx) :
    (dot_S768x512_S512x64_S768x64_1_0_0_1_n_n.rhsIdx i q 0).val = (q ⟨0, by decide⟩).val :=
  dot_S768x512_S512x64_S768x64_1_0_0_1_n_n.rhsIdx_val_of_single rfl i q
theorem dotR1 (i : S768x64.Idx) (q : dot_S768x512_S512x64_S768x64_1_0_0_1_n_n.contr.Idx) :
    (dot_S768x512_S512x64_S768x64_1_0_0_1_n_n.rhsIdx i q 1).val = (i 1).val := by
  unfold DotDims.rhsIdx
  rw [dif_neg (show ¬(1 : Fin S512x64.rank) ∈ dot_S768x512_S512x64_S768x64_1_0_0_1_n_n.rhsBatch by decide),
    dif_pos (show (1 : Fin S512x64.rank) ∈ dot_S768x512_S512x64_S768x64_1_0_0_1_n_n.rhsNonContracting by decide)]
  rfl

/-! ## What the body stores, entry by entry -/

/-- The first product: entry `(·, n, f)` of the stored slab is `Σ_d x[·,n,d] · W[f,d]`. -/
theorem rows_payload (v0 : Vec Ideal S1x768x512 .f32) (v3 : Vec Ideal S64x512 .f32) (u : Fin 1) (n : Fin 768) (f : Fin 64) :
    k0_pay2 v0 v3 (ix3 u n f) = ∑ d : Fin 512, v0 (ix3 (0 : Fin 1) n d) * v3 (ix2 f d) := by
  unfold k0_pay2
  refine (shapeCast_ab_1ab_apply _ shapeCasts_S768x64_S1x768x64 u n f).trans ?_
  refine (DotInner.matmul_zero_apply dot_S768x512_S512x64_S768x64_1_0_0_1_n_n rfl rfl dotL0 dotL1 dotR0 dotR1 none _ _ n f).trans ?_
  refine Finset.sum_congr rfl fun d _ => ?_
  refine congrArg₂ (· * ·) ?_ ?_
  · exact shapeCast_1ab_ab_apply v0 shapeCasts_S1x768x512_S768x512 n d
  · refine (transpose_ix2_apply _ transposes_S64x512_p1_0_S512x64 d f).trans ?_
    exact congrFun (shapeCast_self v3 shapeCasts_S64x512_S64x512) (ix2 f d)

/-- The second product, the same of the other weight matrix. -/
theorem cols_payload (v0 : Vec Ideal S1x768x512 .f32) (v6 : Vec Ideal S64x512 .f32) (u : Fin 1) (n : Fin 768) (f : Fin 64) :
    k0_pay3 v0 v6 (ix3 u n f) = ∑ d : Fin 512, v0 (ix3 (0 : Fin 1) n d) * v6 (ix2 f d) := by
  unfold k0_pay3
  refine (shapeCast_ab_1ab_apply _ shapeCasts_S768x64_S1x768x64 u n f).trans ?_
  refine (DotInner.matmul_zero_apply dot_S768x512_S512x64_S768x64_1_0_0_1_n_n rfl rfl dotL0 dotL1 dotR0 dotR1 none _ _ n f).trans ?_
  refine Finset.sum_congr rfl fun d _ => ?_
  refine congrArg₂ (· * ·) ?_ ?_
  · exact shapeCast_1ab_ab_apply v0 shapeCasts_S1x768x512_S768x512 n d
  · refine (transpose_ix2_apply _ transposes_S64x512_p1_0_S512x64 d f).trans ?_
    exact congrFun (shapeCast_self v6 shapeCasts_S64x512_S64x512) (ix2 f d)

/-- A stored slab is slab `tb` of the whole-array product, when the loaded slab is slab `tb` of `A` and the loaded weights are `B`. -/
theorem rows_block (x0 : Vec Ideal S1x768x512 .f32) (x1 : Vec Ideal S64x512 .f32)
    (A : S2x768x512.Idx → EReal) (B : S64x512.Idx → EReal) (tb : Fin 2)
    (h0 : ∀ (n : Fin 768) (d : Fin 512), x0 (ix3 (0 : Fin 1) n d) = A (ix3 tb n d))
    (h1 : ∀ (f : Fin 64) (d : Fin 512), x1 (ix2 f d) = B (ix2 f d)) (y : S1x768x64.Idx) :
    k0_pay2 x0 x1 y = projOf A B (ix3 tb (y 1) (y 2)) := by
  obtain ⟨u, n, f, rfl⟩ : ∃ (u : Fin 1) (n : Fin 768) (f : Fin 64), y = ix3 u n f := ⟨y 0, y 1, y 2, eq_ix3 y⟩
  rw [rows_payload]
  show _ = ∑ d : Fin 512, A (ix3 tb n d) * B (ix2 f d)
  exact Finset.sum_congr rfl fun d _ => by rw [h0, h1]

theorem cols_block (x0 : Vec Ideal S1x768x512 .f32) (x2 : Vec Ideal S64x512 .f32)
    (A : S2x768x512.Idx → EReal) (B : S64x512.Idx → EReal) (tb : Fin 2)
    (h0 : ∀ (n : Fin 768) (d : Fin 512), x0 (ix3 (0 : Fin 1) n d) = A (ix3 tb n d))
    (h1 : ∀ (f : Fin 64) (d : Fin 512), x2 (ix2 f d) = B (ix2 f d)) (y : S1x768x64.Idx) :
    k0_pay3 x0 x2 y = projOf A B (ix3 tb (y 1) (y 2)) := by
  obtain ⟨u, n, f, rfl⟩ : ∃ (u : Fin 1) (n : Fin 768) (f : Fin 64), y = ix3 u n f := ⟨y 0, y 1, y 2, eq_ix3 y⟩
  rw [cols_payload]
  show _ = ∑ d : Fin 512, A (ix3 tb n d) * B (ix2 f d)
  exact Finset.sum_congr rfl fun d _ => by rw [h0, h1]

/-! ## From slabs to arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the two grid points: the input slab and both output slabs sit at the point's batch entry, the weights
    are whole. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) < 2
    ∧ win0_4.index t (0 : Fin 3) = win0_3.index t (0 : Fin 3) ∧ win0_4.index t (1 : Fin 3) = 0 ∧ win0_4.index t (2 : Fin 3) = 0 :=
  (by decide +kernel : ∀ t : Fin grid0.N, _)

/-- Every batch entry is some point's. -/
theorem idx_onto : ∀ q0 : Fin 2, ∃ t : Fin cfg0.N, win0_3.index t = ![q0.val, 0, 0] :=
  (by decide +kernel : ∀ q0 : Fin 2, ∃ t : Fin grid0.N, win0_3.index t = ![q0.val, 0, 0])

variable (V : (c : Dev nD) → (b : Ref sig .tc) → Buf (Elt Ideal) ((c : Thread nD τ).loc b))

/-- What a point writes back to the first output is its slab of the whole-array product. -/
theorem rows_flushed (c : Dev nD) (t : Fin cfg0.N) :
    (dat0 V c).flushed 3 t = ((cfg0.win 3).blk t).view.read (Elt Ideal) (projOf (V c main_arg0) (V c main_v0)) := by
  show (cfg0.win 3).cut (grid0.coords t) ((dat0 V c).after 3 t) = _
  rw [after0_3]
  unfold out0_3
  rw [View.canon_unit_zero hz3]
  simp only [View.ld_unit_zero (S := S1x768x512) hz3, View.ld_unit_zero (S := S64x512) hz2]
  obtain ⟨e00, e01, e02, e10, e11, e20, e21, e31, e32, hb, e40, e41, e42⟩ := idx_facts t
  funext y
  show k0_pay2 (iblk0 V c 0 t) (iblk0 V c 1 t) y = projOf (V c main_arg0) (V c main_v0) (((cfg0.win 3).blk t).view.emb y)
  refine (rows_block (iblk0 V c 0 t) (iblk0 V c 1 t) (V c main_arg0) (V c main_v0) ⟨win0_3.index t (0 : Fin 3), hb⟩ ?_ ?_ y).trans ?_
  · intro n d
    show V c main_arg0 (((cfg0.win 0).blk t).view.emb (ix3 (0 : Fin 1) n d)) = V c main_arg0 (ix3 ⟨win0_3.index t (0 : Fin 3), hb⟩ n d)
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 768 + 1 * n.val = n.val; omega
    | ⟨2, _⟩ => show win0_0.index t (2 : Fin 3) * 512 + 1 * d.val = d.val; omega
  · intro f d
    show V c main_v0 (((cfg0.win 1).blk t).view.emb (ix2 f d)) = V c main_v0 (ix2 f d)
    refine congrArg _ (funext fun a => Fin.ext ?_)
    match a with
    | ⟨0, _⟩ => show win0_1.index t (0 : Fin 2) * 64 + 1 * f.val = f.val; omega
    | ⟨1, _⟩ => show win0_1.index t (1 : Fin 2) * 512 + 1 * d.val = d.val; omega
  · refine congrArg _ (funext fun a => Fin.ext ?_)
    have hy0 : (y 0).val < 1 := (y 0).isLt
    match a with
    | ⟨0, _⟩ => show win0_3.index t (0 : Fin 3) = win0_3.index t (0 : Fin 3) * 1 + 1 * (y 0).val; omega
    | ⟨1, _⟩ => show (y 1).val = win0_3.index t (1 : Fin 3) * 768 + 1 * (y 1).val; omega
    | ⟨2, _⟩ => show (y 2).val = win0_3.index t (2 : Fin 3) * 64 + 1 * (y 2).val; omega

/-- The same for the second output. -/
theorem cols_flushed (c : Dev nD) (t : Fin cfg0.N) :
    (dat0 V c).flushed 4 t = ((cfg0.win 4).blk t).view.read (Elt Ideal) (projOf (V c main_arg0) (V c main_v1)) := by
  show (cfg0.win 4).cut (grid0.coords t) ((dat0 V c).after 4 t) = _
  rw [after0_4]
  unfold out0_4
  rw [View.canon_unit_zero hz3]
  simp only [View.ld_unit_zero (S := S1x768x512) hz3, View.ld_unit_zero (S := S64x512) hz2]
  obtain ⟨e00, e01, e02, e10, e11, e20, e21, e31, e32, hb, e40, e41, e42⟩ := idx_facts t
  funext y
  show k0_pay3 (iblk0 V c 0 t) (iblk0 V c 2 t) y = projOf (V c main_arg0) (V c main_v1) (((cfg0.win 4).blk t).view.emb y)
  refine (cols_block (iblk0 V c 0 t) (iblk0 V c 2 t) (V c main_arg0) (V c main_v1) ⟨win0_3.index t (0 : Fin 3), hb⟩ ?_ ?_ y).trans ?_
  · intro n d
    show V c main_arg0 (((cfg0.win 0).blk t).view.emb (ix3 (0 : Fin 1) n d)) = V c main_arg0 (ix3 ⟨win0_3.index t (0 : Fin 3), hb⟩ n d)
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 768 + 1 * n.val = n.val; omega
    | ⟨2, _⟩ => show win0_0.index t (2 : Fin 3) * 512 + 1 * d.val = d.val; omega
  · intro f d
    show V c main_v1 (((cfg0.win 2).blk t).view.emb (ix2 f d)) = V c main_v1 (ix2 f d)
    refine congrArg _ (funext fun a => Fin.ext ?_)
    match a with
    | ⟨0, _⟩ => show win0_2.index t (0 : Fin 2) * 64 + 1 * f.val = f.val; omega
    | ⟨1, _⟩ => show win0_2.index t (1 : Fin 2) * 512 + 1 * d.val = d.val; omega
  · refine congrArg _ (funext fun a => Fin.ext ?_)
    have hy0 : (y 0).val < 1 := (y 0).isLt
    match a with
    | ⟨0, _⟩ => show win0_3.index t (0 : Fin 3) = win0_4.index t (0 : Fin 3) * 1 + 1 * (y 0).val; omega
    | ⟨1, _⟩ => show (y 1).val = win0_4.index t (1 : Fin 3) * 768 + 1 * (y 1).val; omega
    | ⟨2, _⟩ => show (y 2).val = win0_4.index t (2 : Fin 3) * 64 + 1 * (y 2).val; omega

/-- An index of the first output is in point `t`'s slab iff each coordinate is in the slab's range on its axis. -/
theorem mem_blk3 (t : Fin cfg0.N) (i : S2x768x64.Idx) :
    i ∈ ((cfg0.win 3).blk t).view.set ↔ ∀ a : Fin 3, win0_3.index t a * S1x768x64.size a ≤ (i a).val
      ∧ (i a).val < win0_3.index t a * S1x768x64.size a + S1x768x64.size a := by
  show i ∈ ((View.whole main_v2_0).slice (win0_3.rect t)).set ↔ _
  rw [View.set_slice_whole, Rect.mem_set_unit]
  exact Iff.rfl

theorem mem_blk4 (t : Fin cfg0.N) (i : S2x768x64.Idx) :
    i ∈ ((cfg0.win 4).blk t).view.set ↔ ∀ a : Fin 3, win0_4.index t a * S1x768x64.size a ≤ (i a).val
      ∧ (i a).val < win0_4.index t a * S1x768x64.size a + S1x768x64.size a := by
  show i ∈ ((View.whole main_v2_1).slice (win0_4.rect t)).set ↔ _
  rw [View.set_slice_whole, Rect.mem_set_unit]
  exact Iff.rfl

/-- THE FIRST OUTPUT after the region: `x · Wᵀ` of what the region found in its first two operands. -/
theorem rows_final (c : Dev nD) : (dat0 V c).arrAt 3 cfg0.N = projOf (V c main_arg0) (V c main_v0) :=
  (dat0 V c).arrAt_eq_of_cover 3 (projOf (V c main_arg0) (V c main_v0)) (fun t _ => rows_flushed V c t) fun i => by
    have hi0 : (i 0).val < 2 := (i 0).isLt
    have hi1 : (i 1).val < 768 := (i 1).isLt
    have hi2 : (i 2).val < 64 := (i 2).isLt
    obtain ⟨t, ht⟩ := idx_onto ⟨(i 0).val, hi0⟩
    have q0 : win0_3.index t (0 : Fin 3) = (i 0).val := congrFun ht 0
    have q1 : win0_3.index t (1 : Fin 3) = 0 := congrFun ht 1
    have q2 : win0_3.index t (2 : Fin 3) = 0 := congrFun ht 2
    refine ⟨t, flush0_3 t, ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 768 ≤ (i 1).val ∧ (i 1).val < win0_3.index t (1 : Fin 3) * 768 + 768; omega
    | ⟨2, _⟩ => show win0_3.index t (2 : Fin 3) * 64 ≤ (i 2).val ∧ (i 2).val < win0_3.index t (2 : Fin 3) * 64 + 64; omega

/-- THE SECOND OUTPUT after the region. -/
theorem cols_final (c : Dev nD) : (dat0 V c).arrAt 4 cfg0.N = projOf (V c main_arg0) (V c main_v1) :=
  (dat0 V c).arrAt_eq_of_cover 4 (projOf (V c main_arg0) (V c main_v1)) (fun t _ => cols_flushed V c t) fun i => by
    have hi0 : (i 0).val < 2 := (i 0).isLt
    have hi1 : (i 1).val < 768 := (i 1).isLt
    have hi2 : (i 2).val < 64 := (i 2).isLt
    obtain ⟨t, ht⟩ := idx_onto ⟨(i 0).val, hi0⟩
    obtain ⟨e00, e01, e02, e10, e11, e20, e21, e31, e32, hb, e40, e41, e42⟩ := idx_facts t
    have q0 : win0_3.index t (0 : Fin 3) = (i 0).val := congrFun ht 0
    refine ⟨t, flush0_4 t, ?_⟩
    rw [mem_blk4]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 768 ≤ (i 1).val ∧ (i 1).val < win0_4.index t (1 : Fin 3) * 768 + 768; omega
    | ⟨2, _⟩ => show win0_4.index t (2 : Fin 3) * 64 ≤ (i 2).val ∧ (i 2).val < win0_4.index t (2 : Fin 3) * 64 + 64; omega

end Cert.KernelIdeal.ProjRegion

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«150945_j21088289424017_2_alg».proof.Proof.LibLayoutRank3
import proofs.«150945_j21088289424017_2_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.LibRank3Reduce.lean ====
/-
  One-axis reductions of a rank-3 array, read at an entry, over the extended reals.

  For an array `src` of extents [a, b, c]:
    * summed over its last axis, entry (p, i) of the [a, b] result is Σ_l src (p, i, l);
    * summed over its middle axis, entry (p, l) of the [a, c] result is Σ_i src (p, i, l);
    * its maximum over the last axis, started from the word −inf, is the fold of `max` from that word's value over l.
  And the all-pairs form built on the first: for `z` of extents [a, b] and `y` of extents [a, c], the array
  |z[p, i] − y[p, l]| over [a, b, c] (z given a trailing unit axis, y a middle one, each repeated along it), summed over its
  last axis, has at (p, i) the sum over l of |z (p, i) − y (p, l)|, an absolute value being `max x (−x)`.
  Nothing is asked of the entries: the statements hold at +∞ and −∞.
-/
import proofs.«150945_j21088289424017_2_alg».proof.Proof.LibOuterPair
import Idealize.ShloMosaic.PureOps.Ideal.Laws
import Idealize.ShloMosaic.Lib.ValueIdx
import Idealize.ShloMosaic.Lib.Pipeline.Value

noncomputable section

namespace Cert.Rank3Reduce

open Idealize.ShloMosaic Idealize.ShloMosaic.ValueIdx

variable {a b c : ℕ}

/-- A sum over the last axis: entry (p, i) is Σ_l src (p, i, l). -/
theorem sum_last_apply (src : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩ src 0x00000000#32 h hφ hacc (ix2 p i) = ∑ l : Fin c, src (ix3 p i l) :=
  (Ideal.multiReduction_add_single src 0x00000000#32 h hφ hacc (ix2 p i)).trans
    (Finset.sum_congr rfl fun l _ => congrArg src (funext fun ax => Fin.ext (by
      match ax with
      | ⟨0, _⟩ => rfl
      | ⟨1, _⟩ => rfl
      | ⟨2, _⟩ => rfl)))

/-- A sum over the middle axis: entry (p, l) is Σ_i src (p, i, l). -/
theorem sum_mid_apply (src : FVec Ideal ⟨3, ![a, b, c]⟩ .f32) (h : (⟨3, ![a, b, c]⟩ : Shape).Reduces [1] ⟨2, ![a, c]⟩)
    (hφ : FKind.Formats .f32) (hacc : (0x00000000#32 : BitVec 32) = 0x00000000#32) (p : Fin a) (l : Fin c) :
    multiReduction .add [1] ⟨2, ![a, c]⟩ src 0x00000000#32 h hφ hacc (ix2 p l) = ∑ i : Fin b, src (ix3 p i l) :=
  (Ideal.multiReduction_add_single src 0x00000000#32 h hφ hacc (ix2 p l)).trans
    (Finset.sum_congr rfl fun i _ => congrArg src (funext fun ax => Fin.ext (by
      match ax with
      | ⟨0, _⟩ => rfl
      | ⟨1, _⟩ => rfl
      | ⟨2, _⟩ => rfl)))

/-- A maximum over the last axis, started from −inf: the fold of `max` over l from that word's value. -/
theorem max_last_apply (src : FVec Ideal ⟨3, ![a, b, c]⟩ .f32) (h : (⟨3, ![a, b, c]⟩ : Shape).Reduces [2] ⟨2, ![a, b]⟩)
    (hφ : FKind.Formats .f32) (hacc : (0xFF800000#32 : BitVec 32) = 0xFF800000#32) (p : Fin a) (i : Fin b) :
    multiReduction .maximumf [2] ⟨2, ![a, b]⟩ src 0xFF800000#32 h hφ hacc (ix2 p i)
      = (Finset.univ : Finset (Fin c)).fold max (Ideal.ofBits .f32 0xFF800000#32) (fun l => src (ix3 p i l)) :=
  (Ideal.multiReduction_maximumf_single src 0xFF800000#32 h hφ hacc (ix2 p i)).trans
    (congrArg ((Finset.univ : Finset (Fin c)).fold max (Ideal.ofBits .f32 0xFF800000#32))
      (funext fun l => congrArg src (funext fun ax => Fin.ext (by
        match ax with
        | ⟨0, _⟩ => rfl
        | ⟨1, _⟩ => rfl
        | ⟨2, _⟩ => rfl))))

/-- The all-pairs absolute differences of `z` against `y`, summed over the positions of `y`. -/
theorem abs_pair_sum_apply (z : FVec Ideal ⟨2, ![a, b]⟩ .f32) (y : FVec Ideal ⟨2, ![a, c]⟩ .f32)
    (h1 : (⟨2, ![a, b]⟩ : Shape).ShapeCasts ⟨3, ![a, b, 1]⟩) (h2 : (⟨3, ![a, b, 1]⟩ : Shape).Broadcasts ⟨3, ![a, b, c]⟩)
    (h3 : (⟨2, ![a, c]⟩ : Shape).ShapeCasts ⟨3, ![a, 1, c]⟩) (h4 : (⟨3, ![a, 1, c]⟩ : Shape).Broadcasts ⟨3, ![a, b, c]⟩)
    (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩
        (absf (subf (broadcastTo ⟨3, ![a, b, c]⟩ (shapeCast ⟨3, ![a, b, 1]⟩ z h1) h2)
          (broadcastTo ⟨3, ![a, b, c]⟩ (shapeCast ⟨3, ![a, 1, c]⟩ y h3) h4)))
        0x00000000#32 h hφ hacc (ix2 p i)
      = ∑ l : Fin c, max (z (ix2 p i) - y (ix2 p l)) (-(z (ix2 p i) - y (ix2 p l))) := by
  refine (sum_last_apply _ h hφ hacc p i).trans (Finset.sum_congr rfl fun l _ => ?_)
  show max (broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))
      (-(broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))) = _
  rw [Cert.OuterPair.left_apply z h1 h2 p i l, Cert.OuterPair.right_apply y h3 h4 p i l]

end Cert.Rank3Reduce

end
-- ==== Proof.LibFlattenLastTwo.lean ====
/-
  Two re-layings that merge or split the last two axes, read at an index given by its coordinates.

  Row-major order makes an `[a, b, c]` array and the `[a, b·c]` array with the same entries agree when the last coordinate `l` of
  the second is `q·c + f` for the last two coordinates `(q, f)` of the first: both positions are `(p·b + q)·c + f`. The same with
  one more leading axis is the split `[a, i, b·c] → [a, i, b, c]`. Also here, the broadcast of a `[1, 1, c]` row over `[a, b, c]`.
-/
import Idealize.ShloMosaic.Lib.Pipeline.Value
import Idealize.ShloMosaic.Lib.ValueIdx

namespace Cert.FlattenLastTwo

open Idealize.ShloMosaic Idealize.ShloMosaic.ValueIdx

variable {α : Type}

/-- An `[a, b, c]` array cast to `[a, B]` with `B = b·c` reads, at `(p, l)` with `l = q·c + f`, the operand at `(p, q, f)`. -/
theorem shapeCast_abc_aB_apply {a b c B : ℕ} (x : (⟨3, ![a, b, c]⟩ : Shape).Idx → α)
    (h : (⟨3, ![a, b, c]⟩ : Shape).ShapeCasts ⟨2, ![a, B]⟩) (p : Fin a) (q : Fin b) (f : Fin c) (l : Fin B)
    (hB : B = b * c) (hl : l.val = q.val * c + f.val) :
    shapeCast ⟨2, ![a, B]⟩ x h (ix2 p l) = x (ix3 p q f) :=
  shapeCast_apply x h _ _ (by
    rw [Shape.rowMajor_val_three, Shape.rowMajor_val_two]
    show (p.val * b + q.val) * c + f.val = p.val * B + l.val
    rw [hl, hB]; ring)

/-- An `[a, i, B]` array with `B = b·c` cast to `[a, i, b, c]` reads, at `(r, s, q, f)`, the operand at `(r, s, l)` with
    `l = q·c + f`. -/
theorem shapeCast_aiB_aibc_apply {a i b c B : ℕ} (x : (⟨3, ![a, i, B]⟩ : Shape).Idx → α)
    (h : (⟨3, ![a, i, B]⟩ : Shape).ShapeCasts ⟨4, ![a, i, b, c]⟩) (r : Fin a) (s : Fin i) (q : Fin b) (f : Fin c) (l : Fin B)
    (hB : B = b * c) (hl : l.val = q.val * c + f.val) :
    shapeCast ⟨4, ![a, i, b, c]⟩ x h (ix4 r s q f) = x (ix3 r s l) :=
  shapeCast_apply x h _ _ (by
    rw [Shape.rowMajor_val_three, Shape.rowMajor_val_four]
    show (r.val * i + s.val) * B + l.val = ((r.val * i + s.val) * b + q.val) * c + f.val
    rw [hl, hB]; ring)

/-- A `[1, 1, c]` row broadcast to `[a, b, c]` reads, at `(p, q, f)`, the operand at `(0, 0, f)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (f : Fin c) :
    broadcastTo ⟨3, ![a, b, c]⟩ v h (ix3 p q f) = v (ix3 (0 : Fin 1) (0 : Fin 1) f) := by
  refine broadcastTo_apply v h (ix3 p q f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

end Cert.FlattenLastTwo
-- ==== Proof.EdgeBody.lean ====
/-
  The pairing-and-normalisation body, entry by entry.

  At a grid point the body holds a `[128, 64]` tile `r` of the first projection, a `[128, 64]` tile `c` of the second, and the two
  `[1, 64]` rows `g` and `s`. It forms `h[p, q, ·] = r[p, ·] + c[q, ·]` over `[128, 128, 64]`, normalises each 64-vector
  `h[p, q, ·]` (mean and mean squared deviation over the last axis, the reciprocal square root, scale by `g`, shift by `s`) and
  stores the result with its last two axes merged: entry `(p, q·64 + f)` of the `[128, 8192]` tile is entry `f` of the normalised
  `h[p, q, ·]`. Every step is read at an index; nothing is asked of the entries.
-/
import proofs.«150945_j21088289424017_2_alg».proof.Proof.Gen.KernelIdeal.Skeleton
import proofs.«150945_j21088289424017_2_alg».proof.Proof.EdgeNorm
import proofs.«150945_j21088289424017_2_alg».proof.Proof.LibRank3Reduce
import proofs.«150945_j21088289424017_2_alg».proof.Proof.LibFlattenLastTwo
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeBody

open Cert.KernelIdeal Cert.KernelIdeal.Gen Cert.EdgeNorm
open Idealize.ShloMosaic Idealize.ShloMosaic.ValueIdx

/-- `r[:, None, :] + c[None, :, :]`. -/
def pairSum (v0 v2 : Vec Ideal S1x128x64 .f32) : FVec Ideal S128x128x64 .f32 :=
  addf (broadcastTo S128x128x64 (shapeCast S128x1x64 (shapeCast S128x64 v0 shapeCasts_S1x128x64_S128x64) shapeCasts_S128x64_S128x1x64) broadcasts_S128x1x64_S128x128x64)
    (broadcastTo S128x128x64 (shapeCast S1x128x64 (shapeCast S128x64 v2 shapeCasts_S1x128x64_S128x64) shapeCasts_S128x64_S1x128x64) broadcasts_S1x128x64_S128x128x64)

/-- The mean over the last axis, kept as an axis of extent one. -/
def laneMean (H : FVec Ideal S128x128x64 .f32) : FVec Ideal S128x128x1 .f32 :=
  divf (shapeCast S128x128x1 (multiReduction .add [2] S128x128 H 0x00000000#32 reduces_S128x128x64_S128x128 (.inl rfl) rfl) shapeCasts_S128x128_S128x128x1)
    (broadcast S128x128x1 (Scalar.ofBits .f32 0x42800000#32))

/-- The deviation from that mean. -/
def centred (H : FVec Ideal S128x128x64 .f32) : FVec Ideal S128x128x64 .f32 :=
  subf H (broadcastTo S128x128x64 (laneMean H) broadcasts_S128x128x1_S128x128x64)

/-- A `[1, 64]` row repeated over `[128, 128, 64]`. -/
def rowOver (w : Vec Ideal S1x64 .f32) : FVec Ideal S128x128x64 .f32 :=
  broadcastTo S128x128x64 (shapeCast S1x1x64 (shapeCast S1x64 w shapeCasts_S1x64_S1x64) shapeCasts_S1x64_S1x1x64) broadcasts_S1x1x64_S128x128x64

/-- The body's stored value is this composition of the four pieces above. -/
theorem pay_eq (v0 v2 : Vec Ideal S1x128x64 .f32) (v23 v26 : Vec Ideal S1x64 .f32) :
    k1_pay1 v0 v2 v23 v26 =
      shapeCast S1x128x8192 (shapeCast S128x8192
        (addf (mulf (mulf (centred (pairSum v0 v2))
            (broadcastTo S128x128x64 (rsqrt (addf (laneMean (mulf (centred (pairSum v0 v2)) (centred (pairSum v0 v2))))
              (broadcast S128x128x1 (Scalar.ofBits .f32 0x3727C5AC#32)))) broadcasts_S128x128x1_S128x128x64))
          (rowOver v23)) (rowOver v26))
        shapeCasts_S128x128x64_S128x8192) shapeCasts_S128x8192_S1x128x8192 := rfl

theorem pairSum_at (v0 v2 : Vec Ideal S1x128x64 .f32) (p q : Fin 128) (e : Fin 64) :
    pairSum v0 v2 (ix3 p q e) = v0 (ix3 (0 : Fin 1) p e) + v2 (ix3 (0 : Fin 1) q e) := by
  unfold pairSum
  refine (addf_apply _ _ _).trans ?_
  refine congrArg₂ (· + ·) ?_ ?_
  · exact (Cert.OuterPair.right_apply _ shapeCasts_S128x64_S128x1x64 broadcasts_S128x1x64_S128x128x64 p q e).trans
      (shapeCast_1ab_ab_apply v0 shapeCasts_S1x128x64_S128x64 p e)
  · exact (Cert.LayoutRank3.broadcastTo_1bc_abc_apply _ broadcasts_S1x128x64_S128x128x64 p q e).trans
      ((shapeCast_ab_1ab_apply _ shapeCasts_S128x64_S1x128x64 (0 : Fin 1) q e).trans
        (shapeCast_1ab_ab_apply v2 shapeCasts_S1x128x64_S128x64 q e))

theorem laneMean_at (H : FVec Ideal S128x128x64 .f32) (p q : Fin 128) (u : Fin 1) :
    laneMean H (ix3 p q u) = Ideal.div (∑ l : Fin 64, H (ix3 p q l)) (Ideal.ofBits .f32 0x42800000#32) := by
  unfold laneMean
  refine (divf_apply _ _ _).trans ?_
  refine congrArg₂ Ideal.div ?_ rfl
  refine (Cert.LayoutRank3.shapeCast_ab_ab1_apply _ shapeCasts_S128x128_S128x128x1 p q u).trans ?_
  exact Cert.Rank3Reduce.sum_last_apply H reduces_S128x128x64_S128x128 (.inl rfl) rfl p q

theorem centred_at (H : FVec Ideal S128x128x64 .f32) (p q : Fin 128) (e : Fin 64) :
    centred H (ix3 p q e) = H (ix3 p q e) - Ideal.div (∑ l : Fin 64, H (ix3 p q l)) (Ideal.ofBits .f32 0x42800000#32) := by
  unfold centred
  refine (subf_apply _ _ _).trans ?_
  refine congrArg₂ (· - ·) rfl ?_
  exact (Cert.LayoutRank3.broadcastTo_ab1_abc_apply _ broadcasts_S128x128x1_S128x128x64 p q e).trans (laneMean_at H p q 0)

theorem rowOver_at (w : Vec Ideal S1x64 .f32) (p q : Fin 128) (f : Fin 64) : rowOver w (ix3 p q f) = w (ix2 (0 : Fin 1) f) := by
  unfold rowOver
  refine (Cert.FlattenLastTwo.broadcastTo_11c_abc_apply _ broadcasts_S1x1x64_S128x128x64 p q f).trans ?_
  refine (shapeCast_ab_1ab_apply _ shapeCasts_S1x64_S1x1x64 (0 : Fin 1) (0 : Fin 1) f).trans ?_
  exact congrFun (shapeCast_self w shapeCasts_S1x64_S1x64) (ix2 (0 : Fin 1) f)

/-- THE BODY'S VALUE at `(·, p, q·64 + f)`: entry `f` of the normalised `r[p, ·] + c[q, ·]`, scaled and shifted by the rows' entry `f`. -/
theorem edge_payload (v0 v2 : Vec Ideal S1x128x64 .f32) (v23 v26 : Vec Ideal S1x64 .f32) (u : Fin 1) (p q : Fin 128) (f : Fin 64)
    (l : Fin 8192) (hl : l.val = q.val * 64 + f.val) :
    k1_pay1 v0 v2 v23 v26 (ix3 u p l)
      = lnAt (fun e => v0 (ix3 (0 : Fin 1) p e) + v2 (ix3 (0 : Fin 1) q e)) (v23 (ix2 (0 : Fin 1) f)) (v26 (ix2 (0 : Fin 1) f)) f := by
  rw [pay_eq]
  refine (shapeCast_ab_1ab_apply _ shapeCasts_S128x8192_S1x128x8192 u p l).trans ?_
  refine (Cert.FlattenLastTwo.shapeCast_abc_aB_apply _ shapeCasts_S128x128x64_S128x8192 p q f l rfl hl).trans ?_
  refine (addf_apply _ _ _).trans ?_
  simp only [lnAt]
  refine congrArg₂ (· + ·) ?_ (rowOver_at v26 p q f)
  refine (mulf_apply _ _ _).trans ?_
  refine congrArg₂ (· * ·) ?_ (rowOver_at v23 p q f)
  refine (mulf_apply _ _ _).trans ?_
  refine congrArg₂ (· * ·) ?_ ?_
  · refine (centred_at _ p q f).trans ?_
    simp only [pairSum_at]
  · refine (Cert.LayoutRank3.broadcastTo_ab1_abc_apply _ broadcasts_S128x128x1_S128x128x64 p q f).trans ?_
    show Ideal.rsqrt (laneMean (mulf (centred (pairSum v0 v2)) (centred (pairSum v0 v2))) (ix3 p q (0 : Fin 1))
      + Ideal.ofBits .f32 0x3727C5AC#32) = _
    rw [laneMean_at]
    simp only [mulf_apply, centred_at, pairSum_at]

end Cert.KernelIdeal.EdgeBody

end
-- ==== Proof.EdgeRegion.lean ====
/-
  The pairing-and-normalisation region, read as a whole array.

  The grid is `(b, it, jt) ∈ 2 × 6 × 6`. At a point the body sees rows `it·128 … it·128+127` of batch entry `b` of the first
  projection, rows `jt·128 … jt·128+127` of batch entry `b` of the second, and the two whole `[1, 64]` rows; it writes the tile
  `[b, it·128 + p, jt·8192 + l]` of the `[2, 768, 49152]` output. With `l = q·64 + f` the last coordinate is
  `(jt·128 + q)·64 + f`: its quotient by 64 is the second position `j = jt·128 + q` and its remainder the channel `f`. So the
  entry `(b, i, L)` of the output is entry `L mod 64` of the normalised `R[b, i, ·] + C[b, L div 64, ·]`, and the 72 tiles cover
  the array.
-/
import proofs.«150945_j21088289424017_2_alg».proof.Proof.Gen.KernelIdeal.Frame
import proofs.«150945_j21088289424017_2_alg».proof.Proof.EdgeBody

set_option maxRecDepth 16384

noncomputable section

open scoped BigOperators

namespace Cert.KernelIdeal.EdgeRegion

open Cert.KernelIdeal Cert.KernelIdeal.Gen Cert.EdgeNorm Cert.KernelIdeal.EdgeBody
open Idealize.ShloMosaic Idealize.ShloMosaic.TcCoe Idealize.ShloMosaic.ValueIdx Idealize.SL.Sem
open Idealize.ShloMosaic.Pipeline (Dat)

/-- Row `p` of tile `t` along an axis of six tiles of 128. -/
def rowIdx (t : Fin 6) (p : Fin 128) : Fin 768 := ⟨t.val * 128 + p.val, by have := t.isLt; have := p.isLt; omega⟩
/-- Lane `l` of tile `t` along the merged axis of six tiles of 8192. -/
def laneIdx (t : Fin 6) (l : Fin 8192) : Fin 49152 := ⟨t.val * 8192 + l.val, by have := t.isLt; have := l.isLt; omega⟩
/-- The second position a merged coordinate belongs to. -/
def colOf (L : Fin 49152) : Fin 768 := ⟨L.val / 64, by have := L.isLt; omega⟩
/-- The channel a merged coordinate belongs to. -/
def chanOf (L : Fin 49152) : Fin 64 := ⟨L.val % 64, by omega⟩

/-- The region's output as one function of what it finds in its four operands. -/
def pairNorm (R C : S2x768x64.Idx → EReal) (g s : S1x64.Idx → EReal) : S2x768x49152.Idx → EReal :=
  fun k => lnAt (fun e => R (ix3 (k 0) (k 1) e) + C (ix3 (k 0) (colOf (k 2)) e))
    (g (ix2 (0 : Fin 1) (chanOf (k 2)))) (s (ix2 (0 : Fin 1) (chanOf (k 2)))) (chanOf (k 2))

/-- A stored tile is tile `(tb, ti, tj)` of that function, when the loaded tiles are the corresponding tiles of `R` and `C` and the
    loaded rows are `g` and `s`. -/
theorem edge_block (x0 x1 : Vec Ideal S1x128x64 .f32) (x2 x3 : Vec Ideal S1x64 .f32)
    (R C : S2x768x64.Idx → EReal) (g s : S1x64.Idx → EReal) (tb : Fin 2) (ti tj : Fin 6)
    (h0 : ∀ (p : Fin 128) (e : Fin 64), x0 (ix3 (0 : Fin 1) p e) = R (ix3 tb (rowIdx ti p) e))
    (h1 : ∀ (q : Fin 128) (e : Fin 64), x1 (ix3 (0 : Fin 1) q e) = C (ix3 tb (rowIdx tj q) e))
    (h2 : ∀ e : Fin 64, x2 (ix2 (0 : Fin 1) e) = g (ix2 (0 : Fin 1) e))
    (h3 : ∀ e : Fin 64, x3 (ix2 (0 : Fin 1) e) = s (ix2 (0 : Fin 1) e)) (y : S1x128x8192.Idx) :
    k1_pay1 x0 x1 x2 x3 y = pairNorm R C g s (ix3 tb (rowIdx ti (y 1)) (laneIdx tj (y 2))) := by
  obtain ⟨u, p, l, rfl⟩ : ∃ (u : Fin 1) (p : Fin 128) (l : Fin 8192), y = ix3 u p l := ⟨y 0, y 1, y 2, eq_ix3 y⟩
  have hl := l.isLt
  have htj := tj.isLt
  rw [edge_payload x0 x1 x2 x3 u p ⟨l.val / 64, by omega⟩ ⟨l.val % 64, by omega⟩ l
    (by show l.val = l.val / 64 * 64 + l.val % 64; omega)]
  show _ = lnAt (fun e => R (ix3 tb (rowIdx ti p) e) + C (ix3 tb (colOf (laneIdx tj l)) e))
    (g (ix2 (0 : Fin 1) (chanOf (laneIdx tj l)))) (s (ix2 (0 : Fin 1) (chanOf (laneIdx tj l)))) (chanOf (laneIdx tj l))
  have hc : colOf (laneIdx tj l) = rowIdx tj ⟨l.val / 64, by omega⟩ :=
    Fin.ext (by show (tj.val * 8192 + l.val) / 64 = tj.val * 128 + l.val / 64; omega)
  have hf : chanOf (laneIdx tj l) = ⟨l.val % 64, by omega⟩ :=
    Fin.ext (by show (tj.val * 8192 + l.val) % 64 = l.val % 64; omega)
  rw [hc, hf]
  simp only [h0, h1, h2, h3]

/-! ## From tiles to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 72 grid points. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = win1_4.index t (2 : Fin 3)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) < 2 ∧ win1_4.index t (1 : Fin 3) < 6 ∧ win1_4.index t (2 : Fin 3) < 6 :=
  (by decide +kernel : ∀ t : Fin grid1.N, _)

/-- Every tile position is some point's. -/
theorem idx_onto : ∀ (q0 : Fin 2) (q1 q2 : Fin 6), ∃ t : Fin cfg1.N, win1_4.index t = ![q0.val, q1.val, q2.val] :=
  (by decide +kernel : ∀ (q0 : Fin 2) (q1 q2 : Fin 6), ∃ t : Fin grid1.N, win1_4.index t = ![q0.val, q1.val, q2.val])

variable (V : (c : Dev nD) → (b : Ref sig .tc) → Buf (Elt Ideal) ((c : Thread nD τ).loc b))

/-- What a point writes back is its tile of the whole-array function. -/
theorem edge_flushed (c : Dev nD) (t : Fin cfg1.N) :
    (dat1 V c).flushed 4 t = ((cfg1.win 4).blk t).view.read (Elt Ideal)
      (pairNorm (V c main_v2_0) (V c main_v2_1) (V c main_v3) (V c main_v4)) := by
  show (cfg1.win 4).cut (grid1.coords t) ((dat1 V c).after 4 t) = _
  rw [after1_4]
  unfold out1_4
  rw [View.canon_unit_zero hz3]
  simp only [View.ld_unit_zero (S := S1x128x64) hz3, View.ld_unit_zero (S := S1x64) hz2]
  obtain ⟨e00, e01, e02, e10, e11, e12, e20, e21, e30, e31, hb0, hb1, hb2⟩ := idx_facts t
  funext y
  show k1_pay1 (iblk1 V c 0 t) (iblk1 V c 1 t) (iblk1 V c 2 t) (iblk1 V c 3 t) y
    = pairNorm (V c main_v2_0) (V c main_v2_1) (V c main_v3) (V c main_v4) (((cfg1.win 4).blk t).view.emb y)
  refine (edge_block (iblk1 V c 0 t) (iblk1 V c 1 t) (iblk1 V c 2 t) (iblk1 V c 3 t)
    (V c main_v2_0) (V c main_v2_1) (V c main_v3) (V c main_v4)
    ⟨win1_4.index t (0 : Fin 3), hb0⟩ ⟨win1_4.index t (1 : Fin 3), hb1⟩ ⟨win1_4.index t (2 : Fin 3), hb2⟩ ?_ ?_ ?_ ?_ y).trans ?_
  · intro p e
    show V c main_v2_0 (((cfg1.win 0).blk t).view.emb (ix3 (0 : Fin 1) p e))
      = V c main_v2_0 (ix3 ⟨win1_4.index t (0 : Fin 3), hb0⟩ (rowIdx ⟨win1_4.index t (1 : Fin 3), hb1⟩ p) e)
    refine congrArg _ (funext fun a => Fin.ext ?_)
    match a with
    | ⟨0, _⟩ => show win1_0.index t (0 : Fin 3) * 1 + 1 * 0 = win1_4.index t (0 : Fin 3); omega
    | ⟨1, _⟩ => show win1_0.index t (1 : Fin 3) * 128 + 1 * p.val = win1_4.index t (1 : Fin 3) * 128 + p.val; omega
    | ⟨2, _⟩ => show win1_0.index t (2 : Fin 3) * 64 + 1 * e.val = e.val; omega
  · intro q e
    show V c main_v2_1 (((cfg1.win 1).blk t).view.emb (ix3 (0 : Fin 1) q e))
      = V c main_v2_1 (ix3 ⟨win1_4.index t (0 : Fin 3), hb0⟩ (rowIdx ⟨win1_4.index t (2 : Fin 3), hb2⟩ q) e)
    refine congrArg _ (funext fun a => Fin.ext ?_)
    match a with
    | ⟨0, _⟩ => show win1_1.index t (0 : Fin 3) * 1 + 1 * 0 = win1_4.index t (0 : Fin 3); omega
    | ⟨1, _⟩ => show win1_1.index t (1 : Fin 3) * 128 + 1 * q.val = win1_4.index t (2 : Fin 3) * 128 + q.val; omega
    | ⟨2, _⟩ => show win1_1.index t (2 : Fin 3) * 64 + 1 * e.val = e.val; omega
  · intro e
    show V c main_v3 (((cfg1.win 2).blk t).view.emb (ix2 (0 : Fin 1) e)) = V c main_v3 (ix2 (0 : Fin 1) e)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * e.val = e.val; omega
  · intro e
    show V c main_v4 (((cfg1.win 3).blk t).view.emb (ix2 (0 : Fin 1) e)) = V c main_v4 (ix2 (0 : Fin 1) e)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * e.val = e.val; omega
  · refine congrArg _ (funext fun a => Fin.ext ?_)
    have hy0 : (y 0).val < 1 := (y 0).isLt
    match a with
    | ⟨0, _⟩ => show win1_4.index t (0 : Fin 3) = win1_4.index t (0 : Fin 3) * 1 + 1 * (y 0).val; omega
    | ⟨1, _⟩ => show win1_4.index t (1 : Fin 3) * 128 + (y 1).val = win1_4.index t (1 : Fin 3) * 128 + 1 * (y 1).val; omega
    | ⟨2, _⟩ => show win1_4.index t (2 : Fin 3) * 8192 + (y 2).val = win1_4.index t (2 : Fin 3) * 8192 + 1 * (y 2).val; omega

/-- An index of the output is in point `t`'s tile iff each coordinate is in the tile's range on its axis. -/
theorem mem_blk (t : Fin cfg1.N) (i : S2x768x49152.Idx) :
    i ∈ ((cfg1.win 4).blk t).view.set ↔ ∀ a : Fin 3, win1_4.index t a * S1x128x8192.size a ≤ (i a).val
      ∧ (i a).val < win1_4.index t a * S1x128x8192.size a + S1x128x8192.size a := by
  show i ∈ ((View.whole main_v5).slice (win1_4.rect t)).set ↔ _
  rw [View.set_slice_whole, Rect.mem_set_unit]
  exact Iff.rfl

/-- THE OUTPUT after the region: the pairing and normalisation of what the region found in its four operands. -/
theorem edge_final (c : Dev nD) :
    (dat1 V c).arrAt 4 cfg1.N = pairNorm (V c main_v2_0) (V c main_v2_1) (V c main_v3) (V c main_v4) :=
  (dat1 V c).arrAt_eq_of_cover 4 (pairNorm (V c main_v2_0) (V c main_v2_1) (V c main_v3) (V c main_v4))
    (fun t _ => edge_flushed V c t) fun i => by
    have hi0 : (i 0).val < 2 := (i 0).isLt
    have hi1 : (i 1).val < 768 := (i 1).isLt
    have hi2 : (i 2).val < 49152 := (i 2).isLt
    obtain ⟨t, ht⟩ := idx_onto ⟨(i 0).val, hi0⟩ ⟨(i 1).val / 128, by omega⟩ ⟨(i 2).val / 8192, by omega⟩
    have q0 : win1_4.index t (0 : Fin 3) = (i 0).val := congrFun ht 0
    have q1 : win1_4.index t (1 : Fin 3) = (i 1).val / 128 := congrFun ht 1
    have q2 : win1_4.index t (2 : Fin 3) = (i 2).val / 8192 := congrFun ht 2
    refine ⟨t, flush1_4 t, ?_⟩
    rw [mem_blk]
    intro a
    match a with
    | ⟨0, _⟩ => show win1_4.index t (0 : Fin 3) * 1 ≤ (i 0).val ∧ (i 0).val < win1_4.index t (0 : Fin 3) * 1 + 1; omega
    | ⟨1, _⟩ => show win1_4.index t (1 : Fin 3) * 128 ≤ (i 1).val ∧ (i 1).val < win1_4.index t (1 : Fin 3) * 128 + 128; omega
    | ⟨2, _⟩ => show win1_4.index t (2 : Fin 3) * 8192 ≤ (i 2).val ∧ (i 2).val < win1_4.index t (2 : Fin 3) * 8192 + 8192; omega

end Cert.KernelIdeal.EdgeRegion

end
-- ==== Proof.EdgeValue.lean ====
/-
  The idealized kernel's result array, as one function of the six arguments.

  The contents of every buffer are followed through @main's five segments:

    * the host folds the mixing matrix into each projection matrix: `Wr'[f, d] = Σ_e We[f, e] · Wr[e, d]`, `Wc'` likewise;
    * the projection region leaves `R = x · Wr'ᵀ` and `C = x · Wc'ᵀ` (what it found in `x`, `Wr'`, `Wc'` is what the host left);
    * the host gives the scale and shift vectors a leading axis of extent one;
    * the pairing region leaves, at `(b, i, L)`, entry `L mod 64` of the normalised `R[b, i, ·] + C[b, L div 64, ·]`;
    * the host splits the last axis: entry `(b, i, j, f)` of the result is entry `(b, i, j·64 + f)` of that array.

  Since `(j·64 + f) div 64 = j` and `(j·64 + f) mod 64 = f`, the result at `(b, i, j, f)` is entry `f` of the normalised vector
  `Σ_d x[b,i,d]·Wr'[·,d] + Σ_d x[b,j,d]·Wc'[·,d]`: the folded form of the edge embedding.
-/
import proofs.«150945_j21088289424017_2_alg».proof.Proof.Gen.KernelIdeal.Frame
import proofs.«150945_j21088289424017_2_alg».proof.Proof.ProjRegion
import proofs.«150945_j21088289424017_2_alg».proof.Proof.EdgeRegion
import proofs.«150945_j21088289424017_2_alg».proof.Proof.LibDotInner
import proofs.«150945_j21088289424017_2_alg».proof.Proof.LibFlattenLastTwo
import Idealize.ShloMosaic.Lib.StableHlo.Run
import Idealize.ShloMosaic.Lib.ValueLayout

set_option maxRecDepth 16384

noncomputable section

open scoped BigOperators

namespace Cert.KernelIdeal.EdgeValue

open Cert.KernelIdeal Cert.KernelIdeal.Gen Cert.EdgeNorm
open Cert.KernelIdeal.ProjRegion Cert.KernelIdeal.EdgeRegion
open Idealize.ShloMosaic Idealize.ShloMosaic.TcCoe Idealize.ShloMosaic.ValueIdx Idealize.SL.Sem Idealize.ShloMosaic.StableHlo

/-! ## The host's product of the mixing matrix with a projection matrix -/

theorem mixL0 (i : S64x512.Idx) (q : dot_S64x64_S64x512_S64x512_1_0_0_1_n_n.contr.Idx) :
    (dot_S64x64_S64x512_S64x512_1_0_0_1_n_n.lhsIdx i q 0).val = (i 0).val := by
  unfold DotDims.lhsIdx
  rw [dif_neg (show ¬(0 : Fin S64x64.rank) ∈ dot_S64x64_S64x512_S64x512_1_0_0_1_n_n.lhsBatch by decide),
    dif_pos (show (0 : Fin S64x64.rank) ∈ dot_S64x64_S64x512_S64x512_1_0_0_1_n_n.lhsNonContracting by decide)]
  rfl
theorem mixL1 (i : S64x512.Idx) (q : dot_S64x64_S64x512_S64x512_1_0_0_1_n_n.contr.Idx) :
    (dot_S64x64_S64x512_S64x512_1_0_0_1_n_n.lhsIdx i q 1).val = (q ⟨0, by decide⟩).val :=
  dot_S64x64_S64x512_S64x512_1_0_0_1_n_n.lhsIdx_val_of_single rfl i q
theorem mixR0 (i : S64x512.Idx) (q : dot_S64x64_S64x512_S64x512_1_0_0_1_n_n.contr.Idx) :
    (dot_S64x64_S64x512_S64x512_1_0_0_1_n_n.rhsIdx i q 0).val = (q ⟨0, by decide⟩).val :=
  dot_S64x64_S64x512_S64x512_1_0_0_1_n_n.rhsIdx_val_of_single rfl i q
theorem mixR1 (i : S64x512.Idx) (q : dot_S64x64_S64x512_S64x512_1_0_0_1_n_n.contr.Idx) :
    (dot_S64x64_S64x512_S64x512_1_0_0_1_n_n.rhsIdx i q 1).val = (i 1).val := by
  unfold DotDims.rhsIdx
  rw [dif_neg (show ¬(1 : Fin S64x512.rank) ∈ dot_S64x64_S64x512_S64x512_1_0_0_1_n_n.rhsBatch by decide),
    dif_pos (show (1 : Fin S64x512.rank) ∈ dot_S64x64_S64x512_S64x512_1_0_0_1_n_n.rhsNonContracting by decide)]
  rfl

/-- `(We · W)[f, d] = Σ_e We[f, e] · W[e, d]`. -/
theorem mixed_weights_at (we : FVec Ideal S64x64 .f32) (w : FVec Ideal S64x512 .f32) (f : Fin 64) (d : Fin 512) :
    Host.dotGeneral dot_S64x64_S64x512_S64x512_1_0_0_1_n_n none we w (ix2 f d) = ∑ e : Fin 64, we (ix2 f e) * w (ix2 e d) := by
  simp only [Host.dotGeneral]
  rw [Ideal.dotGeneral_apply, ← Equiv.sum_comp (contrEquiv1 dot_S64x64_S64x512_S64x512_1_0_0_1_n_n 64 rfl rfl).symm]
  refine Finset.sum_congr rfl fun e _ => ?_
  obtain ⟨el, er⟩ := DotInner.operand_idx dot_S64x64_S64x512_S64x512_1_0_0_1_n_n rfl rfl mixL0 mixL1 mixR0 mixR1 f d e
  rw [el, er]

/-- The pairing region's output over folded projections, at `(b, i, L)`, is the folded edge embedding at
    `(b, i, L div 64, L mod 64)`: the two contractions are spelt out, and a row with a leading unit axis reads the vector. -/
theorem folded_at (X : Acts) (Wr Wc : Proj) (We : Mix) (G S : Vec64) (b : Fin 2) (i : Fin 768) (L : Fin 49152) :
    pairNorm (projOf X (Host.dotGeneral (F := Ideal) (φ₁ := .f32) (φ₂ := .f32) dot_S64x64_S64x512_S64x512_1_0_0_1_n_n none We Wr))
        (projOf X (Host.dotGeneral (F := Ideal) (φ₁ := .f32) (φ₂ := .f32) dot_S64x64_S64x512_S64x512_1_0_0_1_n_n none We Wc))
        (shapeCast S1x64 G shapeCasts_S64_S1x64) (shapeCast S1x64 S shapeCasts_S64_S1x64) (ix3 b i L)
      = edgeFolded X Wr Wc We G S (ix4 b i (colOf L) (chanOf L)) := by
  show lnAt _ _ _ (chanOf L) = lnAt _ _ _ (chanOf L)
  congr 1
  · funext e
    (simp only [hFolded, projOf, mixed_weights_at]) <;> rfl
  · exact shapeCast_a_1a_apply _ shapeCasts_S64_S1x64 (0 : Fin 1) (chanOf L)
  · exact shapeCast_a_1a_apply _ shapeCasts_S64_S1x64 (0 : Fin 1) (chanOf L)

/-! ## The buffers, segment by segment -/

variable (m : (ℓ : Loc nD τ sig) → Buf (Elt Ideal) ℓ) (ρ : Dev nD → PrngReg)

/-- The activations reach the projection region as launched. -/
theorem entry_x (c : Dev nD) : V1 m ρ c main_arg0 = m ((c : Thread nD τ).loc main_arg0) := by
  show StableHlo.after hostOps0 (W0 m ρ c) (Proc.devRef .tc main_arg0) = _
  after_results
  try rfl

/-- The first folded weight matrix. -/
theorem entry_wr (c : Dev nD) : (V1 m ρ c main_v0 : FVec Ideal S64x512 .f32) = Host.dotGeneral (F := Ideal) (φ₁ := .f32) (φ₂ := .f32) dot_S64x64_S64x512_S64x512_1_0_0_1_n_n none
    (m ((c : Thread nD τ).loc main_arg3) : FVec Ideal S64x64 .f32) (m ((c : Thread nD τ).loc main_arg1) : FVec Ideal S64x512 .f32) := by
  show StableHlo.after hostOps0 (W0 m ρ c) (Proc.devRef .tc main_v0) = _
  after_results
  try rfl

/-- The second folded weight matrix. -/
theorem entry_wc (c : Dev nD) : (V1 m ρ c main_v1 : FVec Ideal S64x512 .f32) = Host.dotGeneral (F := Ideal) (φ₁ := .f32) (φ₂ := .f32) dot_S64x64_S64x512_S64x512_1_0_0_1_n_n none
    (m ((c : Thread nD τ).loc main_arg3) : FVec Ideal S64x64 .f32) (m ((c : Thread nD τ).loc main_arg2) : FVec Ideal S64x512 .f32) := by
  show StableHlo.after hostOps0 (W0 m ρ c) (Proc.devRef .tc main_v1) = _
  after_results
  try rfl

/-- The first projection reaches the pairing region as the projection region left it. -/
theorem entry_rows (c : Dev nD) : V3 m ρ c main_v2_0 = projOf (V1 m ρ c main_arg0) (V1 m ρ c main_v0) := by
  show StableHlo.after hostOps1 (W2 m ρ c) (Proc.devRef .tc main_v2_0) = _
  after_results
  exact (W2_arr m ρ c 3).trans (rows_final (V1 m ρ) c)

/-- The second projection likewise. -/
theorem entry_cols (c : Dev nD) : V3 m ρ c main_v2_1 = projOf (V1 m ρ c main_arg0) (V1 m ρ c main_v1) := by
  show StableHlo.after hostOps1 (W2 m ρ c) (Proc.devRef .tc main_v2_1) = _
  after_results
  exact (W2_arr m ρ c 4).trans (cols_final (V1 m ρ) c)

/-- The scale vector is untouched up to the second host stretch. -/
theorem kept_gamma (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results
    try rfl)

/-- So is the shift vector. -/
theorem kept_beta (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    try rfl)

/-- The scale row the pairing region finds: the scale vector with a leading unit axis. -/
theorem entry_gamma (c : Dev nD) : V3 m ρ c main_v3
    = shapeCast S1x64 (m ((c : Thread nD τ).loc main_arg4) : S64.Idx → EReal) shapeCasts_S64_S1x64 := by
  show StableHlo.after hostOps1 (W2 m ρ c) (Proc.devRef .tc main_v3) = _
  after_results
  rw [kept_gamma]
  rfl

/-- The shift row likewise. -/
theorem entry_beta (c : Dev nD) : V3 m ρ c main_v4
    = shapeCast S1x64 (m ((c : Thread nD τ).loc main_arg5) : S64.Idx → EReal) shapeCasts_S64_S1x64 := by
  show StableHlo.after hostOps1 (W2 m ρ c) (Proc.devRef .tc main_v4) = _
  after_results
  rw [kept_beta]
  rfl

/-- The result is the pairing region's output with its last axis split. -/
theorem result_split (c : Dev nD) : W5 m ρ c (Proc.devRef .tc main_v6)
    = shapeCast S2x768x768x64 (pairNorm (V3 m ρ c main_v2_0) (V3 m ρ c main_v2_1) (V3 m ρ c main_v3) (V3 m ρ c main_v4))
        shapeCasts_S2x768x49152_S2x768x768x64 := by
  show StableHlo.after hostOps2 (W4 m ρ c) (Proc.devRef .tc main_v6) = _
  after_results
  rw [show W4 m ρ c (Proc.devRef .tc main_v5) = pairNorm (V3 m ρ c main_v2_0) (V3 m ρ c main_v2_1) (V3 m ρ c main_v3) (V3 m ρ c main_v4)
    from (W4_arr m ρ c 4).trans (edge_final (V3 m ρ) c)]
  rfl

/-- THE KERNEL'S VALUE: the folded form of the edge embedding of the six launch arrays. -/
theorem result_eq (c : Dev nD) : W5 m ρ c (Proc.devRef .tc main_v6)
    = edgeFolded (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_split, entry_rows, entry_cols, entry_gamma, entry_beta, entry_x, entry_wr, entry_wc]
  funext k
  obtain ⟨b, i, j, f, rfl⟩ : ∃ (b : Fin 2) (i j : Fin 768) (f : Fin 64), k = ix4 b i j f :=
    ⟨k 0, k 1, k 2, k 3, eq_ix4 (n0 := 2) (n1 := 768) (n2 := 768) (n3 := 64) k⟩
  have hj := j.isLt
  have hf := f.isLt
  refine (Cert.FlattenLastTwo.shapeCast_aiB_aibc_apply _ shapeCasts_S2x768x49152_S2x768x768x64 b i j f
    ⟨j.val * 64 + f.val, by omega⟩ rfl rfl).trans ?_
  refine (folded_at _ _ _ _ _ _ b i ⟨j.val * 64 + f.val, by omega⟩).trans ?_
  have hc : colOf ⟨j.val * 64 + f.val, by omega⟩ = j := Fin.ext (by show (j.val * 64 + f.val) / 64 = j.val; omega)
  have hch : chanOf ⟨j.val * 64 + f.val, by omega⟩ = f := Fin.ext (by show (j.val * 64 + f.val) % 64 = f.val; omega)
  rw [hc, hch]

end Cert.KernelIdeal.EdgeValue

end
-- ==== Proof.lean ====
/-
  An edge embedding on the extended reals: a kernel that folds the mixing matrix into its projections, against the plain formula.

  For activations `x : [2, 768, 512]`, projection matrices `Wr, Wc : [64, 512]`, a mixing matrix `We : [64, 64]` and scale and
  shift vectors `g, s : [64]`, the reference forms `rows = x·Wrᵀ`, `cols = x·Wcᵀ`, pairs them into
  `outer[b,i,j,·] = rows[b,i,·] + cols[b,j,·]`, mixes `h[b,i,j,f] = Σ_e outer[b,i,j,e]·We[f,e]` and normalises each 64-vector
  `h[b,i,j,·]`. The kernel first multiplies `We` into `Wr` and `Wc` on the host, projects `x` onto the products in one region,
  and pairs and normalises in a second region whose output, stored with the last two axes merged, the host splits again.

  At the ideal instance both programs end with the SAME normalisation applied to a 64-vector `h[b,i,j,·]`, and the two vectors
  are `Σ_e (Σ_d x[b,i,d]Wr[e,d] + Σ_d x[b,j,d]Wc[e,d])·We[f,e]` and `Σ_d x[b,i,d]·(Σ_e We[f,e]Wr[e,d]) + Σ_d x[b,j,d]·(Σ_e We[f,e]Wc[e,d])`.
  They agree by distributing a factor over a sum and exchanging two sums, laws of the real numbers that fail at an infinity of
  the extended reals; so the precondition — every input finite — is used, to make every entry of `x`, `Wr`, `Wc`, `We` a real
  number. Nothing is asked of `g` and `s`, and the normalisation itself is never opened.

  The pieces: EdgeNorm (the two forms and the law), RefEdge (the reference's result is the first form), EdgeRun, ProjRegion,
  EdgeBody, EdgeRegion, EdgeValue (the kernel's result is the second form), FiniteInputs (finite entries are real numbers).
  The three frames are the generated ones; the idealization rewrote nothing, so `preserves` is the true proposition.
-/
import proofs.«150945_j21088289424017_2_alg».proof.Defs
import proofs.«150945_j21088289424017_2_alg».proof.Proof.Gen.Kernel
import proofs.«150945_j21088289424017_2_alg».proof.Proof.Gen.Kernel.Skeleton
import proofs.«150945_j21088289424017_2_alg».proof.Proof.Gen.Kernel.Launch
import proofs.«150945_j21088289424017_2_alg».proof.Proof.Gen.Kernel.Points
import proofs.«150945_j21088289424017_2_alg».proof.Proof.Gen.Kernel.Frame
import proofs.«150945_j21088289424017_2_alg».proof.Proof.Gen.KernelIdeal
import proofs.«150945_j21088289424017_2_alg».proof.Proof.Gen.KernelIdeal.Skeleton
import proofs.«150945_j21088289424017_2_alg».proof.Proof.Gen.KernelIdeal.Launch
import proofs.«150945_j21088289424017_2_alg».proof.Proof.Gen.KernelIdeal.Points
import proofs.«150945_j21088289424017_2_alg».proof.Proof.Gen.KernelIdeal.Frame
import proofs.«150945_j21088289424017_2_alg».proof.Proof.Gen.ReferenceIdeal
import proofs.«150945_j21088289424017_2_alg».proof.Proof.Gen.Pre_finite_inputs
import proofs.«150945_j21088289424017_2_alg».proof.Proof.Gen.ReferenceIdeal.Read
import proofs.«150945_j21088289424017_2_alg».proof.Proof.EdgeNorm
import proofs.«150945_j21088289424017_2_alg».proof.Proof.RefEdge
import proofs.«150945_j21088289424017_2_alg».proof.Proof.FiniteInputs
import proofs.«150945_j21088289424017_2_alg».proof.Proof.EdgeRun
import proofs.«150945_j21088289424017_2_alg».proof.Proof.EdgeValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference is a straight line of host operations: its generated run, the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs the two idealized programs end with one array: the kernel's is the folded form of the edge embedding, the
    reference's the mixed form, and the two forms agree on arrays of real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.EdgeNorm.edgeFolded (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.EdgeValue.result_eq m ρ c), (h c).2⟩)
      (Cert.KernelIdeal.EdgeRun.run_named m ρ)
  · refine (θ_run Cert.ReferenceIdeal.defs _ _).mono (fun _ h c => ⟨?_, (h c).2⟩)
      (Cert.ReferenceIdeal.Value.run (F := Ideal) m' ρ')
    obtain ⟨a0, a1, a2, a3, a4, a5⟩ := hagree c
    obtain ⟨r0, r1, r2, r3⟩ := Cert.FiniteInputs.reals_of_pre _ _ _ _ _ _ (hpre c)
    rw [(h c).1, Cert.ReferenceIdeal.Read.val_main_v31_eq, Cert.RefEdge.reference_eq_edgeMixed, a0, a1, a2, a3, a4, a5]
    exact Cert.EdgeNorm.edgeMixed_eq_edgeFolded _ _ _ _ _ _ r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
